-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x5 .f32 .bf16
  ∧ IdealRules.truncf_extf.Statement Cert.KernelIdeal.S5x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x4096 : Shape := ⟨3, ![4, 3, 4096]⟩
abbrev S_ : Shape := ⟨0, ![]⟩

class Facts : Prop where
  bcast_S_S4x3x4096 : S_.BroadcastsInDim S4x3x4096 (![] : Fin 0 → Fin S4x3x4096.rank)
  reducesTo_S4x3x4096_S_d0_1_2 : S4x3x4096.ReducesTo [0, 1, 2] S_
  h_S_ : 0 < S_.numel

variable [Facts]

def fn {F : FTy → Type} [FloatOps F] (main_arg0 : FVec F S4x3x4096 .f32) (main_arg1 : FVec F S4x3x4096 .f32) : IVec S_ 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_c : IVec S_ 1 := constantI S_ 1 1#1
  let main_v3 : IVec S_ 1 := (fun x v => Host.reduce IntOp.andi x v reducesTo_S4x3x4096_S_d0_1_2 h_S_) main_v2 main_c
  let main_v4 : FVec F S4x3x4096 .f32 := Host.absf main_arg1
  let main_cst_0 : FVec F S_ .f32 := constant S_ .f32 0x7F800000#32
  let main_v5 : FVec F S4x3x4096 .f32 := broadcastInDim S4x3x4096 ![] bcast_S_S4x3x4096 main_cst_0
  let main_v6 : IVec S4x3x4096 1 := cmpf .olt main_v4 main_v5
  let main_c_1 : IVec S_ 1 := constantI S_ 1 1#1
  let main_v7 : IVec S_ 1 := (fun x v => Host.reduce IntOp.andi x v reducesTo_S4x3x4096_S_d0_1_2 h_S_) main_v6 main_c_1
  let main_v8 : IVec S_ 1 := andi main_v3 main_v7
  main_v8
-- ==== Kernel.lean ====
abbrev S4x3x4096 : Shape := ⟨3, ![4, 3, 4096]⟩
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x4096x5 : Shape := ⟨3, ![4, 4096, 5]⟩
abbrev S4x1x4096 : Shape := ⟨3, ![4, 1, 4096]⟩
abbrev S4x5x4096 : Shape := ⟨3, ![4, 5, 4096]⟩
abbrev S1x4096x5 : Shape := ⟨3, ![1, 4096, 5]⟩
abbrev S1x5x4096 : Shape := ⟨3, ![1, 5, 4096]⟩
abbrev S1x1x4096 : Shape := ⟨3, ![1, 1, 4096]⟩
abbrev S4096x5 : Shape := ⟨2, ![4096, 5]⟩
abbrev S4096x20 : Shape := ⟨2, ![4096, 20]⟩
abbrev S5x4096 : Shape := ⟨2, ![5, 4096]⟩
abbrev S20x4096 : Shape := ⟨2, ![20, 4096]⟩
abbrev S4096 : Shape := ⟨1, ![4096]⟩
abbrev S512x20 : Shape := ⟨2, ![512, 20]⟩
abbrev S512x4096 : Shape := ⟨2, ![512, 4096]⟩
abbrev S512 : Shape := ⟨1, ![512]⟩
abbrev S1x1x512 : Shape := ⟨3, ![1, 1, 512]⟩

abbrev nBuf : Space → Nat
  | .hbm => 31
  | .vmem => 8
  | .smem => 0
  | _ => 0

abbrev bufTy : (tb : Table) → Fin (tcTables nBuf tb) → BufTy
  | .hbm, ⟨0, _⟩ => ⟨S4x3x4096, .f32⟩
  | .hbm, ⟨1, _⟩ => ⟨S4x3x4096, .f32⟩
  | .hbm, ⟨2, _⟩ => ⟨S4x4096x3, .f32⟩
  | .hbm, ⟨3, _⟩ => ⟨S4x4096x3, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x3, .f32⟩
  | .hbm, ⟨9, _⟩ => ⟨S4x4096x3, .f32⟩
  | .hbm, ⟨10, _⟩ => ⟨S_, .f32⟩
  | .hbm, ⟨11, _⟩ => ⟨S4x4096x1, .f32⟩
  | .hbm, ⟨12, _⟩ => ⟨S4x4096x5, .f32⟩
  | .hbm, ⟨13, _⟩ => ⟨S4x3x4096, .f32⟩
  | .hbm, ⟨14, _⟩ => ⟨S_, .f32⟩
  | .hbm, ⟨15, _⟩ => ⟨S4x4096, .f32⟩
  | .hbm, ⟨16, _⟩ => ⟨S4x1x4096, .f32⟩
  | .hbm, ⟨17, _⟩ => ⟨S_, .f32⟩
  | .hbm, ⟨18, _⟩ => ⟨S4x1x4096, .f32⟩
  | .hbm, ⟨19, _⟩ => ⟨S4x5x4096, .f32⟩
  | .hbm, ⟨20, _⟩ => ⟨S4x1x4096, .f32⟩
  | .hbm, ⟨21, _⟩ => ⟨S4x1x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x4096x5, .f32⟩
  | .local _ .vmem, ⟨1, _⟩ => ⟨S1x4096x5, .f32⟩
  | .local _ .vmem, ⟨2, _⟩ => ⟨S1x5x4096, .f32⟩
  | .local _ .vmem, ⟨3, _⟩ => ⟨S1x5x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_cst_4 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x3x4096_S4x4096x3_0_2_1 : S4x3x4096.Transposes [0, 2, 1] S4x4096x3
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S_S4x4096x3 : S_.BroadcastsInDim S4x4096x3 (![] : Fin 0 → Fin S4x4096x3.rank)
  bcast_S_S4x4096x1 : S_.BroadcastsInDim S4x4096x1 (![] : Fin 0 → Fin S4x4096x1.rank)
  concatenates_S4x4096x3_S4x4096x1_S4x4096x1_S4x4096x5_d2 : Shape.Concatenates [S4x4096x3, S4x4096x1, S4x4096x1] S4x4096x5 2
  reducesTo_S4x3x4096_S4x4096_d1 : S4x3x4096.ReducesTo [1] S4x4096
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  concatenates_S4x3x4096_S4x1x4096_S4x1x4096_S4x5x4096_d1 : Shape.Concatenates [S4x3x4096, S4x1x4096, S4x1x4096] S4x5x4096 1
  inb_S1x4096x5_S1x4096x5_0_0_0 : ∀ a, (![0, 0, 0] : Fin 3 → Nat) a + S1x4096x5.size a ≤ S1x4096x5.size a
  h_S1x4096x5 : 0 < S1x4096x5.numel
  shapeCasts_S1x4096x5_S4096x5 : S1x4096x5.ShapeCasts S4096x5
  bitsLt_bf16_f32 : FTy.bits .bf16 < FTy.bits .f32
  concatenates_S4096x5_S4096x5_S4096x5_S4096x5_S4096x20_d1 : Shape.Concatenates [S4096x5, S4096x5, S4096x5, S4096x5] S4096x20 1
  inb_S1x5x4096_S1x5x4096_0_0_0 : ∀ a, (![0, 0, 0] : Fin 3 → Nat) a + S1x5x4096.size a ≤ S1x5x4096.size a
  h_S1x5x4096 : 0 < S1x5x4096.numel
  shapeCasts_S1x5x4096_S5x4096 : S1x5x4096.ShapeCasts S5x4096
  concatenates_S5x4096_S5x4096_S5x4096_S5x4096_S20x4096_d0 : Shape.Concatenates [S5x4096, S5x4096, S5x4096, S5x4096] S20x4096 0
  slices_S4096x20_o0_0_S512x20 : S4096x20.Slices ![0, 0] S512x20
  reduces_S512x4096_S512 : S512x4096.Reduces [1] S512
  inb_S1x1x4096_S1x1x512_0_0_0 : ∀ a, (![0, 0, 0] : Fin 3 → Nat) a + S1x1x512.size a ≤ S1x1x4096.size a
  h_S1x1x512 : 0 < S1x1x512.numel
  shapeCasts_S1x1x512_S512 : S1x1x512.ShapeCasts S512
  shapeCasts_S512_S1x1x512 : S512.ShapeCasts S1x1x512
  reduces_S512x4096_S4096 : S512x4096.Reduces [0] S4096
  slices_S4096x20_o512_0_S512x20 : S4096x20.Slices ![512, 0] S512x20
  inb_S1x1x4096_S1x1x512_0_0_512 : ∀ a, (![0, 0, 512] : Fin 3 → Nat) a + S1x1x512.size a ≤ S1x1x4096.size a
  slices_S4096x20_o1024_0_S512x20 : S4096x20.Slices ![1024, 0] S512x20
  inb_S1x1x4096_S1x1x512_0_0_1024 : ∀ a, (![0, 0, 1024] : Fin 3 → Nat) a + S1x1x512.size a ≤ S1x1x4096.size a
  slices_S4096x20_o1536_0_S512x20 : S4096x20.Slices ![1536, 0] S512x20
  inb_S1x1x4096_S1x1x512_0_0_1536 : ∀ a, (![0, 0, 1536] : Fin 3 → Nat) a + S1x1x512.size a ≤ S1x1x4096.size a
  slices_S4096x20_o2048_0_S512x20 : S4096x20.Slices ![2048, 0] S512x20
  inb_S1x1x4096_S1x1x512_0_0_2048 : ∀ a, (![0, 0, 2048] : Fin 3 → Nat) a + S1x1x512.size a ≤ S1x1x4096.size a
  slices_S4096x20_o2560_0_S512x20 : S4096x20.Slices ![2560, 0] S512x20
  inb_S1x1x4096_S1x1x512_0_0_2560 : ∀ a, (![0, 0, 2560] : Fin 3 → Nat) a + S1x1x512.size a ≤ S1x1x4096.size a
  slices_S4096x20_o3072_0_S512x20 : S4096x20.Slices ![3072, 0] S512x20
  inb_S1x1x4096_S1x1x512_0_0_3072 : ∀ a, (![0, 0, 3072] : Fin 3 → Nat) a + S1x1x512.size a ≤ S1x1x4096.size a
  slices_S4096x20_o3584_0_S512x20 : S4096x20.Slices ![3584, 0] S512x20
  inb_S1x1x4096_S1x1x512_0_0_3584 : ∀ a, (![0, 0, 3584] : Fin 3 → Nat) a + S1x1x512.size a ≤ S1x1x4096.size a
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  reducesTo_S4x1x4096_S_d0_1_2 : S4x1x4096.ReducesTo [0, 1, 2] S_
  dot_S512x20_S20x4096_S512x4096_1_0_0_1_n_n_wf : DotDims.WF S512x20 S20x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x5.size a ≤ S4x4096x5.size a
  hwx0_0 : ∀ i : grid0.Coords, EltTy.bits .f32 = 32 ∨ (Rect.block (s := S4x4096x5) S1x4096x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x4096.size a ≤ S4x5x4096.size a
  hwx0_1 : ∀ i : grid0.Coords, EltTy.bits .f32 = 32 ∨ (Rect.block (s := S4x5x4096) S1x5x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x4096.size a
  hwx0_2 : ∀ i : grid0.Coords, EltTy.bits .f32 = 32 ∨ (Rect.block (s := S4x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S512x20_S20x4096_S512x4096_1_0_0_1_n_n : DotDims S512x20 S20x4096 S512x4096 where
  lhsContracting := [1]
  rhsContracting := [0]
  lhsNonContracting := [0]
  rhsNonContracting := [1]
  lhsBatch := []
  rhsBatch := []
  wf := dot_S512x20_S20x4096_S512x4096_1_0_0_1_n_n_wf

abbrev win0_0 : Pipeline.Window sig grid0 :=
  Pipeline.Window.ofSpec (Memref.whole main_v7) S1x4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x5x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x4096 : Shape := ⟨3, ![4, 3, 4096]⟩
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩
abbrev S4 : Shape := ⟨1, ![4]⟩

abbrev nBuf : Space → Nat
  | .hbm => 35
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x3x4096, .f32⟩
  | .hbm, ⟨2, _⟩ => ⟨S4x4096x3, .f32⟩
  | .hbm, ⟨3, _⟩ => ⟨S4x4096x3, .f32⟩
  | .hbm, ⟨4, _⟩ => ⟨S4x4096x1x3, .f32⟩
  | .hbm, ⟨5, _⟩ => ⟨S4x1x4096x3, .f32⟩
  | .hbm, ⟨6, _⟩ => ⟨S4x4096x4096x3, .f32⟩
  | .hbm, ⟨7, _⟩ => ⟨S4x4096x4096x3, .f32⟩
  | .hbm, ⟨8, _⟩ => ⟨S4x4096x4096x3, .f32⟩
  | .hbm, ⟨9, _⟩ => ⟨S4x4096x4096x3, .f32⟩
  | .hbm, ⟨10, _⟩ => ⟨S_, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_cst_9 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  transposes_S4x3x4096_S4x4096x3_0_2_1 : S4x3x4096.Transposes [0, 2, 1] S4x4096x3
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.BitsFrame.lean ====
/-
  The fused Chamfer program as printed runs to the end, and what its two result arrays then hold.

  The program has three stretches: host lines that build the two augmented operands
  A = [-2·xᵀ | |x|² | 1] (one 4096×5 matrix per batch) and B = [y ; 1 ; |y|²] (one 5×4096 matrix per batch),
  one launch over the four batches, and host lines that average the two vectors of minima.
  At batch t the body reads block t of A and block t of B whole, and writes block t of each result:
  the row minima in eight pieces of 512 entries that tile the block, the column minima in one piece.
  What the body read from the result buffers before storing is never used, so those buffers may hold anything
  when the body starts. This module states what each result buffer holds after the body as a function of the
  two input blocks, runs the body once against that statement, and from it derives the run of the whole
  program: it terminates without fault, the two results' arrays hold, block by block, what the body wrote,
  and the argument arrays are never written.
-/
import proofs.«104659_g48447231099485_cont_8to1_c_557_14_alg».proof.Proof.Gen.Kernel.Launch
import proofs.«104659_g48447231099485_cont_8to1_c_557_14_alg».proof.Proof.Gen.Kernel.Skeleton
import proofs.«104659_g48447231099485_cont_8to1_c_557_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffers' contents on core `c` when the launch starts: the launch memory after the host lines that build
    the augmented operands. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first host lines, the launch, then the averaging lines as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The averaging lines touch only the launch's four arrays and buffers the launch does not stage. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the launch's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No host line before the launch writes the first argument: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- No averaging line writes the first argument either: it ends as it was given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Block `t` of array `w` as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds block `t` of A in A's current buffer at every batch `t`. -/
theorem beforeA_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- And block `t` of B in B's. -/
theorem beforeB_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run that ends with every array of the launch at its blocks and every other buffer as the averaging
    lines leave it: the two arguments end as they were given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's rectangles -/

/-- The whole block of A, the whole block of B. -/
abbrev rA : Rect S1x4096x5 := Rect.unit (s := S1x4096x5) ![0, 0, 0] S1x4096x5.size inb_S1x4096x5_S1x4096x5_0_0_0
abbrev rB : Rect S1x5x4096 := Rect.unit (s := S1x5x4096) ![0, 0, 0] S1x5x4096.size inb_S1x5x4096_S1x5x4096_0_0_0
/-- The eight pieces of 512 row minima. -/
abbrev rX0 : Rect S1x1x4096 := Rect.unit (s := S1x1x4096) ![0, 0, 0] S1x1x512.size inb_S1x1x4096_S1x1x512_0_0_0
abbrev rX1 : Rect S1x1x4096 := Rect.unit (s := S1x1x4096) ![0, 0, 512] S1x1x512.size inb_S1x1x4096_S1x1x512_0_0_512
abbrev rX2 : Rect S1x1x4096 := Rect.unit (s := S1x1x4096) ![0, 0, 1024] S1x1x512.size inb_S1x1x4096_S1x1x512_0_0_1024
abbrev rX3 : Rect S1x1x4096 := Rect.unit (s := S1x1x4096) ![0, 0, 1536] S1x1x512.size inb_S1x1x4096_S1x1x512_0_0_1536
abbrev rX4 : Rect S1x1x4096 := Rect.unit (s := S1x1x4096) ![0, 0, 2048] S1x1x512.size inb_S1x1x4096_S1x1x512_0_0_2048
abbrev rX5 : Rect S1x1x4096 := Rect.unit (s := S1x1x4096) ![0, 0, 2560] S1x1x512.size inb_S1x1x4096_S1x1x512_0_0_2560
abbrev rX6 : Rect S1x1x4096 := Rect.unit (s := S1x1x4096) ![0, 0, 3072] S1x1x512.size inb_S1x1x4096_S1x1x512_0_0_3072
abbrev rX7 : Rect S1x1x4096 := Rect.unit (s := S1x1x4096) ![0, 0, 3584] S1x1x512.size inb_S1x1x4096_S1x1x512_0_0_3584
/-- The whole block of column minima. -/
abbrev rY : Rect S1x1x4096 := Rect.unit (s := S1x1x4096) ![0, 0, 0] S1x1x4096.size inb_S1x1x4096_S1x1x4096_0_0_0

/-! ## What the body leaves in the two result buffers -/

/-- The widened left operand (20 columns) and the widened right operand (20 rows) from the two blocks. -/
abbrev wideA (x0 : Vec F S1x4096x5 .f32) : FVec F S4096x20 .bf16 := k0_pay5 (View.ld x0 rA)
abbrev wideB (x1 : Vec F S1x5x4096 .f32) : FVec F S20x4096 .bf16 := k0_pay6 (View.ld x1 rB)

/-- The row minima's buffer after the body: its eight stores as pieces, the last store first. -/
def outX (x0 : Vec F S1x4096x5 .f32) (x1 : Vec F S1x5x4096 .f32) : Vec F S1x1x4096 .f32 :=
  View.canon [⟨rX7, k0_pay3 (wideA x0) (wideB x1)⟩,
    ⟨rX6, k0_pay1 (k0_pay23 (wideA x0) (wideB x1))⟩,
    ⟨rX5, k0_pay20 (wideA x0) (wideB x1)⟩,
    ⟨rX4, k0_pay18 (wideA x0) (wideB x1)⟩,
    ⟨rX3, k0_pay16 (wideA x0) (wideB x1)⟩,
    ⟨rX2, k0_pay14 (k0_pay13 (View.ld x0 rA) (View.ld x1 rB))⟩,
    ⟨rX1, k0_pay10 (View.ld x0 rA) (View.ld x1 rB)⟩,
    ⟨rX0, k0_pay8 (View.ld x0 rA) (View.ld x1 rB)⟩]

/-- The column minima's buffer after the body: one store. -/
def outY (x0 : Vec F S1x4096x5 .f32) (x1 : Vec F S1x5x4096 .f32) : Vec F S1x1x4096 .f32 :=
  View.canon [⟨rY, k0_pay4 (wideA x0) (wideB x1)
    (k0_pay21 (wideA x0) (wideB x1) (k0_pay11 (View.ld x0 rA) (View.ld x1 rB)) (k0_pay12 (View.ld x0 rA) (View.ld x1 rB)))
    (k0_pay22 (wideA x0) (wideB x1))⟩]

/-- The eight pieces tile the row minima's block. -/
theorem coverX (p0 p1 p2 p3 p4 p5 p6 p7 : Vec F S1x1x512 .f32) (y : S1x1x4096.Idx) :
    ∃ pc ∈ ([⟨rX7, p7⟩, ⟨rX6, p6⟩, ⟨rX5, p5⟩, ⟨rX4, p4⟩, ⟨rX3, p3⟩, ⟨rX2, p2⟩, ⟨rX1, p1⟩, ⟨rX0, p0⟩] : List (View.Piece (Elt F) S1x1x4096 .f32)), y ∈ pc.1.set :=
  View.cover_of_tiled [⟨rX7, p7⟩, ⟨rX6, p6⟩, ⟨rX5, p5⟩, ⟨rX4, p4⟩, ⟨rX3, p3⟩, ⟨rX2, p2⟩, ⟨rX1, p1⟩, ⟨rX0, p0⟩] S1x1x512.size (by rfl) y
/-- The one piece is the column minima's whole block. -/
theorem coverY (p0 : Vec F S1x1x4096 .f32) (y : S1x1x4096.Idx) :
    ∃ pc ∈ ([⟨rY, p0⟩] : List (View.Piece (Elt F) S1x1x4096 .f32)), y ∈ pc.1.set :=
  View.cover_of_tiled [⟨rY, p0⟩] S1x1x4096.size (by rfl) y

/-! ## The body's run -/

set_option maxHeartbeats 4000000 in
/-- The body on whole buffers — A's and B's at their blocks, the results' at anything — runs to the end, leaves A's and
    B's as they were and each result's at the pieces stated above. -/
theorem sound_kernel (c : Dev nD) (E : Set ℕ) (i : grid0.Coords)
    (arg1 : Memref sig .tc .vmem S1x4096x5 .f32) (harg1 : arg1.IsWhole) (arg2 : Memref sig .tc .vmem S1x5x4096 .f32) (harg2 : arg2.IsWhole)
    (arg3 : Memref sig .tc .vmem S1x1x4096 .f32) (harg3 : arg3.IsWhole) (arg4 : Memref sig .tc .vmem S1x1x4096 .f32) (harg4 : arg4.IsWhole)
    (x0 : Vec F S1x4096x5 .f32) (x1 : Vec F S1x5x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outX x0 x1) ∗ owns (c : Thread nD τ) arg4 fullShare (outY x0 x1)) -∗ K ⟨⟩))
      ⊢ wp frame (wpE (defs₀ (F := F)) Variants.none c none) E (cc0__chamfer_kernel i arg1 harg1 arg2 harg2 arg3 harg3 arg4 harg4) K := by
  simp only [cc0__chamfer_kernel_eq_skeleton]; unfold cc0__chamfer_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX _ _ _ _ _ _ _ _)
  iexists _; isplitr
  swap; · iexact H3
  ipureintro
  exact View.read_writes_eq_canon _ _ _ (coverY _)

/-! ## The launch's proof data -/

/-- On core `c`: the four arrays as the launch finds them; after the body at batch `t`, A's and B's buffers at their
    blocks and the two results' at the pieces above, of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t) (iblk m c 1 t)
    | ⟨3, _⟩ => outY (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem afterA (c : Dev nD) (t : Fin cfg0.N) : (dats m 0 c).after 0 t = iblk m c 0 t := by dsimp only [dats]
theorem afterB (c : Dev nD) (t : Fin cfg0.N) : (dats m 0 c).after 1 t = iblk m c 1 t := by dsimp only [dats]
theorem afterX (c : Dev nD) (t : Fin cfg0.N) : (dats m 0 c).after 2 t = outX (iblk m c 0 t) (iblk m c 1 t) := by dsimp only [dats]
theorem afterY (c : Dev nD) (t : Fin cfg0.N) : (dats m 0 c).after 3 t = outY (iblk m c 0 t) (iblk m c 1 t) := by dsimp only [dats]

theorem beforeA (c : Dev nD) (t : Fin cfg0.N) (d) : (dats m 0 c).before 0 t d = iblk m c 0 t :=
  beforeA_of m (dats m 0 c) (A_eq m c 0) (afterA m c) t d
theorem beforeB (c : Dev nD) (t : Fin cfg0.N) (d) : (dats m 0 c).before 1 t d = iblk m c 1 t :=
  beforeB_of m (dats m 0 c) (A_eq m c 1) (afterB m c) t d

/-! ## The body at a batch -/

/-- What the body is called with at batch `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeA, beforeB]
  rw [show (dats m 0 c).Φ t.succ = (dats m 0 c).Φ t.castSucc from rfl,
    show (dats m 0 c).owesAt () t.succ = (dats m 0 c).owesAt () t.castSucc from rfl,
    afterA, afterB, afterX, afterY]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without fault; each of the launch's arrays ends at its
    blocks as the proof data says and every other buffer as the averaging lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The two arguments end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.IdealFrame.lean ====
/-
  The idealized fused Chamfer program runs to the end, and what its two result arrays then hold.

  The program has three stretches: host lines that build the two augmented operands
  A = [-2·xᵀ | |x|² | 1] (one 4096×5 matrix per batch) and B = [y ; 1 ; |y|²] (one 5×4096 matrix per batch),
  one launch over the four batches, and host lines that average the two vectors of minima.
  At batch t the body reads block t of A and block t of B whole, and writes block t of each result:
  the row minima in eight pieces of 512 entries that tile the block, the column minima in one piece.
  What the body read from the result buffers before storing is never used, so those buffers may hold anything
  when the body starts. This module states what each result buffer holds after the body as a function of the
  two input blocks, runs the body once against that statement, and from it derives the run of the whole
  program: it terminates without fault, the two results' arrays hold, block by block, what the body wrote,
  and the argument arrays are never written.
-/
import proofs.«104659_g48447231099485_cont_8to1_c_557_14_alg».proof.Proof.Gen.KernelIdeal.Launch
import proofs.«104659_g48447231099485_cont_8to1_c_557_14_alg».proof.Proof.Gen.KernelIdeal.Skeleton
import proofs.«104659_g48447231099485_cont_8to1_c_557_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its launch -/

/-- The buffers' contents on core `c` when the launch starts: the launch memory after the host lines that build
    the augmented operands. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the first host lines, the launch, then the averaging lines as the launch's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The averaging lines touch only the launch's four arrays and buffers the launch does not stage. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the launch's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.nary_writes, Finset.mem_singleton] <;> exact StableHlo.devRef_ne_of_ne (by decide)

/-- No host line before the launch writes the first argument: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-- No averaging line writes the first argument either: it ends as it was given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks -/

/-- Block `t` of array `w` as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body finds block `t` of A in A's current buffer at every batch `t`. -/
theorem beforeA_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- And block `t` of B in B's. -/
theorem beforeB_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- From a run that ends with every array of the launch at its blocks and every other buffer as the averaging
    lines leave it: the two arguments end as they were given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's rectangles -/

/-- The whole block of A, the whole block of B. -/
abbrev rA : Rect S1x4096x5 := Rect.unit (s := S1x4096x5) ![0, 0, 0] S1x4096x5.size inb_S1x4096x5_S1x4096x5_0_0_0
abbrev rB : Rect S1x5x4096 := Rect.unit (s := S1x5x4096) ![0, 0, 0] S1x5x4096.size inb_S1x5x4096_S1x5x4096_0_0_0
/-- The eight pieces of 512 row minima. -/
abbrev rX0 : Rect S1x1x4096 := Rect.unit (s := S1x1x4096) ![0, 0, 0] S1x1x512.size inb_S1x1x4096_S1x1x512_0_0_0
abbrev rX1 : Rect S1x1x4096 := Rect.unit (s := S1x1x4096) ![0, 0, 512] S1x1x512.size inb_S1x1x4096_S1x1x512_0_0_512
abbrev rX2 : Rect S1x1x4096 := Rect.unit (s := S1x1x4096) ![0, 0, 1024] S1x1x512.size inb_S1x1x4096_S1x1x512_0_0_1024
abbrev rX3 : Rect S1x1x4096 := Rect.unit (s := S1x1x4096) ![0, 0, 1536] S1x1x512.size inb_S1x1x4096_S1x1x512_0_0_1536
abbrev rX4 : Rect S1x1x4096 := Rect.unit (s := S1x1x4096) ![0, 0, 2048] S1x1x512.size inb_S1x1x4096_S1x1x512_0_0_2048
abbrev rX5 : Rect S1x1x4096 := Rect.unit (s := S1x1x4096) ![0, 0, 2560] S1x1x512.size inb_S1x1x4096_S1x1x512_0_0_2560
abbrev rX6 : Rect S1x1x4096 := Rect.unit (s := S1x1x4096) ![0, 0, 3072] S1x1x512.size inb_S1x1x4096_S1x1x512_0_0_3072
abbrev rX7 : Rect S1x1x4096 := Rect.unit (s := S1x1x4096) ![0, 0, 3584] S1x1x512.size inb_S1x1x4096_S1x1x512_0_0_3584
/-- The whole block of column minima. -/
abbrev rY : Rect S1x1x4096 := Rect.unit (s := S1x1x4096) ![0, 0, 0] S1x1x4096.size inb_S1x1x4096_S1x1x4096_0_0_0

/-! ## What the body leaves in the two result buffers -/

/-- The widened left operand (20 columns) and the widened right operand (20 rows) from the two blocks. -/
abbrev wideA (x0 : Vec F S1x4096x5 .f32) : FVec F S4096x20 .bf16 := k0_pay5 (View.ld x0 rA)
abbrev wideB (x1 : Vec F S1x5x4096 .f32) : FVec F S20x4096 .bf16 := k0_pay6 (View.ld x1 rB)

/-- The row minima's buffer after the body: its eight stores as pieces, the last store first. -/
def outX (x0 : Vec F S1x4096x5 .f32) (x1 : Vec F S1x5x4096 .f32) : Vec F S1x1x4096 .f32 :=
  View.canon [⟨rX7, k0_pay3 (wideA x0) (wideB x1)⟩,
    ⟨rX6, k0_pay1 (k0_pay23 (wideA x0) (wideB x1))⟩,
    ⟨rX5, k0_pay20 (wideA x0) (wideB x1)⟩,
    ⟨rX4, k0_pay18 (wideA x0) (wideB x1)⟩,
    ⟨rX3, k0_pay16 (wideA x0) (wideB x1)⟩,
    ⟨rX2, k0_pay14 (k0_pay13 (View.ld x0 rA) (View.ld x1 rB))⟩,
    ⟨rX1, k0_pay10 (View.ld x0 rA) (View.ld x1 rB)⟩,
    ⟨rX0, k0_pay8 (View.ld x0 rA) (View.ld x1 rB)⟩]

/-- The column minima's buffer after the body: one store. -/
def outY (x0 : Vec F S1x4096x5 .f32) (x1 : Vec F S1x5x4096 .f32) : Vec F S1x1x4096 .f32 :=
  View.canon [⟨rY, k0_pay4 (wideA x0) (wideB x1)
    (k0_pay21 (wideA x0) (wideB x1) (k0_pay11 (View.ld x0 rA) (View.ld x1 rB)) (k0_pay12 (View.ld x0 rA) (View.ld x1 rB)))
    (k0_pay22 (wideA x0) (wideB x1))⟩]

/-- The eight pieces tile the row minima's block. -/
theorem coverX (p0 p1 p2 p3 p4 p5 p6 p7 : Vec F S1x1x512 .f32) (y : S1x1x4096.Idx) :
    ∃ pc ∈ ([⟨rX7, p7⟩, ⟨rX6, p6⟩, ⟨rX5, p5⟩, ⟨rX4, p4⟩, ⟨rX3, p3⟩, ⟨rX2, p2⟩, ⟨rX1, p1⟩, ⟨rX0, p0⟩] : List (View.Piece (Elt F) S1x1x4096 .f32)), y ∈ pc.1.set :=
  View.cover_of_tiled [⟨rX7, p7⟩, ⟨rX6, p6⟩, ⟨rX5, p5⟩, ⟨rX4, p4⟩, ⟨rX3, p3⟩, ⟨rX2, p2⟩, ⟨rX1, p1⟩, ⟨rX0, p0⟩] S1x1x512.size (by rfl) y
/-- The one piece is the column minima's whole block. -/
theorem coverY (p0 : Vec F S1x1x4096 .f32) (y : S1x1x4096.Idx) :
    ∃ pc ∈ ([⟨rY, p0⟩] : List (View.Piece (Elt F) S1x1x4096 .f32)), y ∈ pc.1.set :=
  View.cover_of_tiled [⟨rY, p0⟩] S1x1x4096.size (by rfl) y

/-! ## The body's run -/

set_option maxHeartbeats 4000000 in
/-- The body on whole buffers — A's and B's at their blocks, the results' at anything — runs to the end, leaves A's and
    B's as they were and each result's at the pieces stated above. -/
theorem sound_kernel (c : Dev nD) (E : Set ℕ) (i : grid0.Coords)
    (arg1 : Memref sig .tc .vmem S1x4096x5 .f32) (harg1 : arg1.IsWhole) (arg2 : Memref sig .tc .vmem S1x5x4096 .f32) (harg2 : arg2.IsWhole)
    (arg3 : Memref sig .tc .vmem S1x1x4096 .f32) (harg3 : arg3.IsWhole) (arg4 : Memref sig .tc .vmem S1x1x4096 .f32) (harg4 : arg4.IsWhole)
    (x0 : Vec F S1x4096x5 .f32) (x1 : Vec F S1x5x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outX x0 x1) ∗ owns (c : Thread nD τ) arg4 fullShare (outY x0 x1)) -∗ K ⟨⟩))
      ⊢ wp frame (wpE (defs₀ (F := F)) Variants.none c none) E (cc0__chamfer_kernel i arg1 harg1 arg2 harg2 arg3 harg3 arg4 harg4) K := by
  simp only [cc0__chamfer_kernel_eq_skeleton]; unfold cc0__chamfer_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverX _ _ _ _ _ _ _ _)
  iexists _; isplitr
  swap; · iexact H3
  ipureintro
  exact View.read_writes_eq_canon _ _ _ (coverY _)

/-! ## The launch's proof data -/

/-- On core `c`: the four arrays as the launch finds them; after the body at batch `t`, A's and B's buffers at their
    blocks and the two results' at the pieces above, of those blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (iblk m c 0 t) (iblk m c 1 t)
    | ⟨3, _⟩ => outY (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem afterA (c : Dev nD) (t : Fin cfg0.N) : (dats m 0 c).after 0 t = iblk m c 0 t := by dsimp only [dats]
theorem afterB (c : Dev nD) (t : Fin cfg0.N) : (dats m 0 c).after 1 t = iblk m c 1 t := by dsimp only [dats]
theorem afterX (c : Dev nD) (t : Fin cfg0.N) : (dats m 0 c).after 2 t = outX (iblk m c 0 t) (iblk m c 1 t) := by dsimp only [dats]
theorem afterY (c : Dev nD) (t : Fin cfg0.N) : (dats m 0 c).after 3 t = outY (iblk m c 0 t) (iblk m c 1 t) := by dsimp only [dats]

theorem beforeA (c : Dev nD) (t : Fin cfg0.N) (d) : (dats m 0 c).before 0 t d = iblk m c 0 t :=
  beforeA_of m (dats m 0 c) (A_eq m c 0) (afterA m c) t d
theorem beforeB (c : Dev nD) (t : Fin cfg0.N) (d) : (dats m 0 c).before 1 t d = iblk m c 1 t :=
  beforeB_of m (dats m 0 c) (A_eq m c 1) (afterB m c) t d

/-! ## The body at a batch -/

/-- What the body is called with at batch `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeA, beforeB]
  rw [show (dats m 0 c).Φ t.succ = (dats m 0 c).Φ t.castSucc from rfl,
    show (dats m 0 c).owesAt () t.succ = (dats m 0 c).owesAt () t.castSucc from rfl,
    afterA, afterB, afterX, afterY]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without fault; each of the launch's arrays ends at its
    blocks as the proof data says and every other buffer as the averaging lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The two arguments end as they were given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.BodyValue.lean ====
/-
  The body's arithmetic read entry by entry, at the extended reals.

  The body widens block A (4096×5) to [A | A | A−A | A−A] (4096×20) and block B (5×4096) to
  [B ; B−B ; B ; B−B] (20×4096) — changing the number format is the identity on the extended reals — and for each
  of eight groups of 512 rows multiplies the group's rows of the widened A by the widened B. Entry (p, q) of a
  group's product is the sum over the 20 widened columns of the row's entry times the column's entry. The row
  minima take, per row, the least entry over the 4096 columns, started from +∞; the column minima take, per
  column, the least entry over a group's 512 rows, and the eight groups' minima are then merged by `min`,
  started from +∞.
-/
import proofs.«104659_g48447231099485_cont_8to1_c_557_14_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.Body

open Cert.KernelIdeal Cert.KernelIdeal.Gen
open Idealize.ShloMosaic Idealize.ShloMosaic.ValueIdx

/-- The product's dimension record: rows × 20 times 20 × columns. -/
abbrev D : DotDims S512x20 S20x4096 S512x4096 := dot_S512x20_S20x4096_S512x4096_1_0_0_1_n_n

theorem lhs_row (j : S512x4096.Idx) (k : D.contr.Idx) : (D.lhsIdx j k 0 : ℕ) = j 0 := by
  simp [DotDims.lhsIdx, D, dot_S512x20_S20x4096_S512x4096_1_0_0_1_n_n]; rfl
theorem lhs_col (j : S512x4096.Idx) (k : D.contr.Idx) : (D.lhsIdx j k 1 : ℕ) = k ⟨0, by decide⟩ := by
  simp [DotDims.lhsIdx, D, dot_S512x20_S20x4096_S512x4096_1_0_0_1_n_n]; rfl
theorem rhs_row (j : S512x4096.Idx) (k : D.contr.Idx) : (D.rhsIdx j k 0 : ℕ) = k ⟨0, by decide⟩ := by
  simp [DotDims.rhsIdx, D, dot_S512x20_S20x4096_S512x4096_1_0_0_1_n_n]; rfl
theorem rhs_col (j : S512x4096.Idx) (k : D.contr.Idx) : (D.rhsIdx j k 1 : ℕ) = j 1 := by
  simp [DotDims.rhsIdx, D, dot_S512x20_S20x4096_S512x4096_1_0_0_1_n_n]; rfl

/-- The contraction index is one coordinate below 20. -/
def contr20 : D.contr.Idx ≃ Fin 20 := contrEquiv1 D 20 (by decide) (by decide)

/-- Entry (p, q) of a product into the zero matrix: the sum over the 20 columns of L's row p times R's column q. -/
theorem product_apply (L : FVec Ideal S512x20 .bf16) (R : FVec Ideal S20x4096 .bf16) (p : Fin 512) (q : Fin 4096) :
    matmul D none L R (constant S512x4096 .f32 0x00000000#32) (ix2 p q) = ∑ k : Fin 20, L (ix2 p k) * R (ix2 k q) := by
  refine (Ideal.matmul_constant_zero_apply D none L R (ix2 p q)).trans ?_
  rw [← Equiv.sum_comp contr20.symm]
  refine Finset.sum_congr rfl fun k _ => ?_
  have hL : D.lhsIdx (ix2 p q) (contr20.symm k) = ix2 p k := by
    funext a; apply Fin.ext
    match a with
    | ⟨0, _⟩ => exact lhs_row _ _
    | ⟨1, _⟩ => exact (lhs_col _ _).trans (contrEquiv1_symm_val D 20 (by decide) (by decide) k)
  have hR : D.rhsIdx (ix2 p q) (contr20.symm k) = ix2 k q := by
    funext a; apply Fin.ext
    match a with
    | ⟨0, _⟩ => exact (rhs_row _ _).trans (contrEquiv1_symm_val D 20 (by decide) (by decide) k)
    | ⟨1, _⟩ => exact rhs_col _ _
  rw [hL, hR]

/-! ## The widened operands -/

/-- Dropping the leading unit axis of a block reads (0, p, r) at (p, r). -/
theorem dropUnit_apply {n0 n1 : Nat} {α : Type} (v : (⟨3, ![1, n0, n1]⟩ : Shape).Idx → α)
    (h : (⟨3, ![1, n0, n1]⟩ : Shape).ShapeCasts ⟨2, ![n0, n1]⟩) (p : Fin n0) (r : Fin n1) :
    shapeCast ⟨2, ![n0, n1]⟩ v h (ix2 p r) = v (ix3 (0 : Fin 1) p r) := by
  refine (shapeCast_dropUnit_apply ![n0, n1] v h (ix2 p r)).trans (congrArg v ?_)
  funext a
  match a with
  | ⟨0, _⟩ => rfl
  | ⟨1, _⟩ => rfl
  | ⟨2, _⟩ => rfl

/-- Column k of the widened A at row P: columns 0–9 repeat A's five columns twice, columns 10–19 hold A − A. -/
def wideAEntry (v0 : Vec Ideal S1x4096x5 .f32) (P : Fin 4096) (k : Fin 20) : EReal :=
  if k.val / 5 < 2 then v0 (ix3 (0 : Fin 1) P (⟨k.val % 5, Nat.mod_lt _ (by decide)⟩ : Fin 5))
  else v0 (ix3 (0 : Fin 1) P (⟨k.val % 5, Nat.mod_lt _ (by decide)⟩ : Fin 5)) - v0 (ix3 (0 : Fin 1) P (⟨k.val % 5, Nat.mod_lt _ (by decide)⟩ : Fin 5))

/-- Row k of the widened B at column q: rows 0–4 and 10–14 are B's five rows, rows 5–9 and 15–19 hold B − B. -/
def wideBEntry (v7 : Vec Ideal S1x5x4096 .f32) (k : Fin 20) (q : Fin 4096) : EReal :=
  if k.val / 5 % 2 = 0 then v7 (ix3 (0 : Fin 1) (⟨k.val % 5, Nat.mod_lt _ (by decide)⟩ : Fin 5) q)
  else v7 (ix3 (0 : Fin 1) (⟨k.val % 5, Nat.mod_lt _ (by decide)⟩ : Fin 5) q) - v7 (ix3 (0 : Fin 1) (⟨k.val % 5, Nat.mod_lt _ (by decide)⟩ : Fin 5) q)

theorem wideA_apply (v0 : Vec Ideal S1x4096x5 .f32) (P : Fin 4096) (k : Fin 20) :
    k0_pay5 v0 (ix2 P k) = wideAEntry v0 P k := by
  have hk := k.isLt
  unfold k0_pay5 wideAEntry
  have hi : ∀ b : Fin S4096x5.rank, b.cast (rfl : S4096x5.rank = S4096x20.rank) ≠ (1 : Fin 2) →
      ((ix2 P (⟨k.val % 5, Nat.mod_lt _ (by decide)⟩ : Fin 5) : S4096x5.Idx) b).val = ((ix2 P k : S4096x20.Idx) (b.cast rfl)).val := by
    intro b hb
    match b with
    | ⟨0, _⟩ => rfl
    | ⟨1, _⟩ => exact absurd rfl hb
  rcases (by omega : k.val / 5 = 0 ∨ k.val / 5 = 1 ∨ k.val / 5 = 2 ∨ k.val / 5 = 3) with h0 | h0 | h0 | h0
  · rw [if_pos (by omega)]
    refine (concatenate_apply_piece (1 : Fin 2) _ _ (ix2 P k) 0 (by show (0 : ℕ) < 4; decide) S4096x5 _ rfl rfl 0 rfl
      (ix2 P (⟨k.val % 5, Nat.mod_lt _ (by decide)⟩ : Fin 5)) hi (by show 0 + k.val % 5 = k.val; omega)).trans ?_
    exact dropUnit_apply v0 _ P _
  · rw [if_pos (by omega)]
    refine (concatenate_apply_piece (1 : Fin 2) _ _ (ix2 P k) 1 (by show (1 : ℕ) < 4; decide) S4096x5 _ rfl rfl 5 rfl
      (ix2 P (⟨k.val % 5, Nat.mod_lt _ (by decide)⟩ : Fin 5)) hi (by show 5 + k.val % 5 = k.val; omega)).trans ?_
    exact dropUnit_apply v0 _ P _
  · rw [if_neg (by omega)]
    refine (concatenate_apply_piece (1 : Fin 2) _ _ (ix2 P k) 2 (by show (2 : ℕ) < 4; decide) S4096x5 _ rfl rfl 10 rfl
      (ix2 P (⟨k.val % 5, Nat.mod_lt _ (by decide)⟩ : Fin 5)) hi (by show 10 + k.val % 5 = k.val; omega)).trans ?_
    exact congrArg (fun z : EReal => z - z) (dropUnit_apply v0 _ P _)
  · rw [if_neg (by omega)]
    refine (concatenate_apply_piece (1 : Fin 2) _ _ (ix2 P k) 3 (by show (3 : ℕ) < 4; decide) S4096x5 _ rfl rfl 15 rfl
      (ix2 P (⟨k.val % 5, Nat.mod_lt _ (by decide)⟩ : Fin 5)) hi (by show 15 + k.val % 5 = k.val; omega)).trans ?_
    exact congrArg (fun z : EReal => z - z) (dropUnit_apply v0 _ P _)

theorem wideB_apply (v7 : Vec Ideal S1x5x4096 .f32) (k : Fin 20) (q : Fin 4096) :
    k0_pay6 v7 (ix2 k q) = wideBEntry v7 k q := by
  have hk := k.isLt
  unfold k0_pay6 wideBEntry
  have hi : ∀ b : Fin S5x4096.rank, b.cast (rfl : S5x4096.rank = S20x4096.rank) ≠ (0 : Fin 2) →
      ((ix2 (⟨k.val % 5, Nat.mod_lt _ (by decide)⟩ : Fin 5) q : S5x4096.Idx) b).val = ((ix2 k q : S20x4096.Idx) (b.cast rfl)).val := by
    intro b hb
    match b with
    | ⟨0, _⟩ => exact absurd rfl hb
    | ⟨1, _⟩ => rfl
  rcases (by omega : k.val / 5 = 0 ∨ k.val / 5 = 1 ∨ k.val / 5 = 2 ∨ k.val / 5 = 3) with h0 | h0 | h0 | h0
  · rw [if_pos (by omega)]
    refine (concatenate_apply_piece (0 : Fin 2) _ _ (ix2 k q) 0 (by show (0 : ℕ) < 4; decide) S5x4096 _ rfl rfl 0 rfl
      (ix2 (⟨k.val % 5, Nat.mod_lt _ (by decide)⟩ : Fin 5) q) hi (by show 0 + k.val % 5 = k.val; omega)).trans ?_
    exact dropUnit_apply v7 _ _ q
  · rw [if_neg (by omega)]
    refine (concatenate_apply_piece (0 : Fin 2) _ _ (ix2 k q) 1 (by show (1 : ℕ) < 4; decide) S5x4096 _ rfl rfl 5 rfl
      (ix2 (⟨k.val % 5, Nat.mod_lt _ (by decide)⟩ : Fin 5) q) hi (by show 5 + k.val % 5 = k.val; omega)).trans ?_
    exact congrArg (fun z : EReal => z - z) (dropUnit_apply v7 _ _ q)
  · rw [if_pos (by omega)]
    refine (concatenate_apply_piece (0 : Fin 2) _ _ (ix2 k q) 2 (by show (2 : ℕ) < 4; decide) S5x4096 _ rfl rfl 10 rfl
      (ix2 (⟨k.val % 5, Nat.mod_lt _ (by decide)⟩ : Fin 5) q) hi (by show 10 + k.val % 5 = k.val; omega)).trans ?_
    exact dropUnit_apply v7 _ _ q
  · rw [if_neg (by omega)]
    refine (concatenate_apply_piece (0 : Fin 2) _ _ (ix2 k q) 3 (by show (3 : ℕ) < 4; decide) S5x4096 _ rfl rfl 15 rfl
      (ix2 (⟨k.val % 5, Nat.mod_lt _ (by decide)⟩ : Fin 5) q) hi (by show 15 + k.val % 5 = k.val; omega)).trans ?_
    exact congrArg (fun z : EReal => z - z) (dropUnit_apply v7 _ _ q)

/-! ## Rows of a group, products, and the two minima -/

/-- Row p of the group that starts at row `off` is row off + p of the widened A. -/
theorem groupRow_apply (off : Nat) (v6 : FVec Ideal S4096x20 .bf16) (h : S4096x20.Slices ![off, 0] S512x20)
    (p : Fin 512) (k : Fin 20) (P : Fin 4096) (hP : P.val = off + p.val) :
    extractStridedSlice S512x20 ![off, 0] v6 h (ix2 p k) = v6 (ix2 P k) := by
  refine extractStridedSlice_apply ![off, 0] v6 h (ix2 p k) (ix2 P k) fun a => ?_
  match a with
  | ⟨0, _⟩ => exact hP
  | ⟨1, _⟩ => show k.val = 0 + k.val; omega

/-- Entry (p, q) of the product of a group's rows with the widened B. -/
theorem groupProduct_apply (off : Nat) (v6 : FVec Ideal S4096x20 .bf16) (v13 : FVec Ideal S20x4096 .bf16)
    (h : S4096x20.Slices ![off, 0] S512x20) (p : Fin 512) (q : Fin 4096) (P : Fin 4096) (hP : P.val = off + p.val) :
    matmul D none (extractStridedSlice S512x20 ![off, 0] v6 h) v13 (constant S512x4096 .f32 0x00000000#32) (ix2 p q)
      = ∑ k : Fin 20, v6 (ix2 P k) * v13 (ix2 k q) := by
  rw [product_apply]
  exact Finset.sum_congr rfl fun k _ => by rw [groupRow_apply off v6 h p k P hP]

/-- The least entry of row p over the 4096 columns, started from the accumulator's word. -/
theorem rowMin_apply (M : FVec Ideal S512x4096 .f32) (h : S512x4096.Reduces [1] S512) (hφ : FKind.Formats .f32)
    (hacc : (0x7F800000#32 : BitVec 32) = FKind.minimumf.neutral .f32 hφ) (p : Fin 512) :
    multiReduction .minimumf [1] S512 M 0x7F800000#32 h hφ hacc (ix1 p)
      = (Finset.univ : Finset (Fin 4096)).fold min (Ideal.ofBits .f32 0x7F800000#32) (fun q => M (ix2 p q)) := by
  rw [multiReduction_minimumf_eq_fold]
  refine (h.fold_filter_drop_single _ _ M (ix1 p)).trans ?_
  show (Finset.univ : Finset (Fin 4096)).fold min (Ideal.ofBits .f32 0x7F800000#32) (M ∘ h.lift (ix1 p)) = _
  have e : (M ∘ h.lift (ix1 p) : Fin 4096 → EReal) = fun q : Fin 4096 => M (ix2 p q) :=
    funext fun q => congrArg M (funext fun a => Fin.ext (by
      match a with
      | ⟨0, _⟩ => rfl
      | ⟨1, _⟩ => rfl))
  exact congrArg (fun f : Fin 4096 → EReal => (Finset.univ : Finset (Fin 4096)).fold min (Ideal.ofBits .f32 0x7F800000#32) f) e

/-- The least entry of column q over a group's 512 rows, started from the accumulator's word. -/
theorem colMin_apply (M : FVec Ideal S512x4096 .f32) (h : S512x4096.Reduces [0] S4096) (hφ : FKind.Formats .f32)
    (hacc : (0x7F800000#32 : BitVec 32) = FKind.minimumf.neutral .f32 hφ) (q : Fin 4096) :
    multiReduction .minimumf [0] S4096 M 0x7F800000#32 h hφ hacc (ix1 q)
      = (Finset.univ : Finset (Fin 512)).fold min (Ideal.ofBits .f32 0x7F800000#32) (fun p => M (ix2 p q)) := by
  rw [multiReduction_minimumf_eq_fold]
  refine (h.fold_filter_drop_single _ _ M (ix1 q)).trans ?_
  show (Finset.univ : Finset (Fin 512)).fold min (Ideal.ofBits .f32 0x7F800000#32) (M ∘ h.lift (ix1 q)) = _
  have e : (M ∘ h.lift (ix1 q) : Fin 512 → EReal) = fun p : Fin 512 => M (ix2 p q) :=
    funext fun p => congrArg M (funext fun a => Fin.ext (by
      match a with
      | ⟨0, _⟩ => rfl
      | ⟨1, _⟩ => rfl))
  exact congrArg (fun f : Fin 512 → EReal => (Finset.univ : Finset (Fin 512)).fold min (Ideal.ofBits .f32 0x7F800000#32) f) e

/-- A vector of n entries stored as a [1, 1, n] block reads entry i at (0, 0, i). -/
theorem addUnits_apply {n : Nat} {α : Type} (v : (⟨1, ![n]⟩ : Shape).Idx → α)
    (h : (⟨1, ![n]⟩ : Shape).ShapeCasts ⟨3, ![1, 1, n]⟩) (i : Fin n) :
    shapeCast ⟨3, ![1, 1, n]⟩ v h (ix3 (0 : Fin 1) (0 : Fin 1) i) = v (ix1 i) := by
  refine shapeCast_apply v h _ (ix1 i) ?_
  rw [Shape.rowMajor_val_one, Shape.rowMajor_val_three]
  show i.val = (0 * 1 + 0) * n + i.val
  omega

/-! ## One function for every group -/

/-- Entry (P, q) of the product of the widened operands, from the two blocks. -/
def prodEntry (v0 : Vec Ideal S1x4096x5 .f32) (v7 : Vec Ideal S1x5x4096 .f32) (P q : Fin 4096) : EReal :=
  ∑ k : Fin 20, wideAEntry v0 P k * wideBEntry v7 k q

/-- Entry (p, q) of the group starting at row `off`: entry (off + p, q) of the whole product. -/
theorem groupEntry (off : Nat) (hoff : off + 512 ≤ 4096) (v0 : Vec Ideal S1x4096x5 .f32) (v7 : Vec Ideal S1x5x4096 .f32)
    (h : S4096x20.Slices ![off, 0] S512x20) (p : Fin 512) (q : Fin 4096) :
    matmul D none (extractStridedSlice S512x20 ![off, 0] (k0_pay5 v0) h) (k0_pay6 v7) (constant S512x4096 .f32 0x00000000#32) (ix2 p q)
      = prodEntry v0 v7 ⟨off + p.val, by have := p.isLt; omega⟩ q := by
  rw [groupProduct_apply off (k0_pay5 v0) (k0_pay6 v7) h p q ⟨off + p.val, by have := p.isLt; omega⟩ rfl]
  exact Finset.sum_congr rfl fun k _ => by rw [wideA_apply, wideB_apply]

/-- The group's 512 row minima, stored as a [1, 1, 512] piece: entry p is the least of row off + p of the product. -/
theorem rowPiece (off : Nat) (hoff : off + 512 ≤ 4096) (v0 : Vec Ideal S1x4096x5 .f32) (v7 : Vec Ideal S1x5x4096 .f32)
    (h : S4096x20.Slices ![off, 0] S512x20) (hred : S512x4096.Reduces [1] S512) (hφ : FKind.Formats .f32)
    (hacc : (0x7F800000#32 : BitVec 32) = FKind.minimumf.neutral .f32 hφ) (hcast : S512.ShapeCasts S1x1x512) (p : Fin 512) :
    shapeCast S1x1x512 (multiReduction .minimumf [1] S512
        (matmul D none (extractStridedSlice S512x20 ![off, 0] (k0_pay5 v0) h) (k0_pay6 v7) (constant S512x4096 .f32 0x00000000#32))
        0x7F800000#32 hred hφ hacc) hcast (ix3 (0 : Fin 1) (0 : Fin 1) p)
      = (Finset.univ : Finset (Fin 4096)).fold min (Ideal.ofBits .f32 0x7F800000#32)
          (fun q => prodEntry v0 v7 ⟨off + p.val, by have := p.isLt; omega⟩ q) := by
  refine (addUnits_apply _ hcast p).trans ?_
  rw [rowMin_apply]
  exact congrArg (fun f : Fin 4096 → EReal => (Finset.univ : Finset (Fin 4096)).fold min (Ideal.ofBits .f32 0x7F800000#32) f)
    (funext fun q => groupEntry off hoff v0 v7 h p q)

/-- The group's column minima: entry q is the least of column q over the group's 512 rows. -/
theorem colPiece (off : Nat) (hoff : off + 512 ≤ 4096) (v0 : Vec Ideal S1x4096x5 .f32) (v7 : Vec Ideal S1x5x4096 .f32)
    (h : S4096x20.Slices ![off, 0] S512x20) (hred : S512x4096.Reduces [0] S4096) (hφ : FKind.Formats .f32)
    (hacc : (0x7F800000#32 : BitVec 32) = FKind.minimumf.neutral .f32 hφ) (q : Fin 4096) :
    multiReduction .minimumf [0] S4096
        (matmul D none (extractStridedSlice S512x20 ![off, 0] (k0_pay5 v0) h) (k0_pay6 v7) (constant S512x4096 .f32 0x00000000#32))
        0x7F800000#32 hred hφ hacc (ix1 q)
      = (Finset.univ : Finset (Fin 512)).fold min (Ideal.ofBits .f32 0x7F800000#32)
          (fun p => prodEntry v0 v7 ⟨off + p.val, by have := p.isLt; omega⟩ q) := by
  rw [colMin_apply]
  exact congrArg (fun f : Fin 512 → EReal => (Finset.univ : Finset (Fin 512)).fold min (Ideal.ofBits .f32 0x7F800000#32) f)
    (funext fun p => groupEntry off hoff v0 v7 h p q)

end Cert.KernelIdeal.Body

end
-- ==== Proof.BufferValue.lean ====
/-
  What the two result buffers hold after the body, entry by entry, from the two input blocks.

  Entry i of the row minima's block is the least, over the 4096 columns q, of entry (i, q) of the product of
  the widened operands: the eight pieces of 512 entries are blocks of this one function. Entry q of the column
  minima's block merges, by `min` from +∞, the least of column q over each of the eight groups of 512 rows.
-/
import proofs.«104659_g48447231099485_cont_8to1_c_557_14_alg».proof.Proof.IdealFrame
import proofs.«104659_g48447231099485_cont_8to1_c_557_14_alg».proof.Proof.BodyValue

set_option maxRecDepth 16384

noncomputable section

namespace Cert.KernelIdeal.Buf

open Cert.KernelIdeal Cert.KernelIdeal.Gen Cert.KernelIdeal.Fr Cert.KernelIdeal.Body
open Idealize.ShloMosaic Idealize.ShloMosaic.ValueIdx

theorem zeros3 : (![0, 0, 0] : Fin 3 → Nat) = fun _ => 0 := funext fun a => by fin_cases a <;> rfl

/-- The least of row P of the product over the 4096 columns. -/
def rowLeast (x0 : Vec Ideal S1x4096x5 .f32) (x1 : Vec Ideal S1x5x4096 .f32) (P : Fin 4096) : EReal :=
  (Finset.univ : Finset (Fin 4096)).fold min (Ideal.ofBits .f32 0x7F800000#32) (fun q => prodEntry x0 x1 P q)

/-- The row minima's block as one function of its index. -/
def rowMins (x0 : Vec Ideal S1x4096x5 .f32) (x1 : Vec Ideal S1x5x4096 .f32) : Vec Ideal S1x1x4096 .f32 :=
  fun y => rowLeast x0 x1 (y 2)

/-- A piece of 512 row minima stored at offset `off` is that function on the piece's rectangle. -/
theorem piece_ok (off : Nat) (hoff : off + 512 ≤ 4096) (x0 : Vec Ideal S1x4096x5 .f32) (x1 : Vec Ideal S1x5x4096 .f32)
    (h : S4096x20.Slices ![off, 0] S512x20) (hred : S512x4096.Reduces [1] S512) (hφ : FKind.Formats .f32)
    (hacc : (0x7F800000#32 : BitVec 32) = FKind.minimumf.neutral .f32 hφ) (hcast : S512.ShapeCasts S1x1x512)
    (inb : ∀ a, (![0, 0, off] : Fin 3 → Nat) a + S1x1x512.size a ≤ S1x1x4096.size a)
    (x : (Rect.unit (s := S1x1x4096) ![0, 0, off] S1x1x512.size inb).shape.Idx) :
    shapeCast S1x1x512 (multiReduction .minimumf [1] S512
        (matmul D none (extractStridedSlice S512x20 ![off, 0] (k0_pay5 x0) h) (k0_pay6 x1) (constant S512x4096 .f32 0x00000000#32))
        0x7F800000#32 hred hφ hacc) hcast x
      = rowMins x0 x1 ((Rect.unit (s := S1x1x4096) ![0, 0, off] S1x1x512.size inb).emb x) := by
  obtain ⟨p, rfl⟩ : ∃ p : Fin 512, x = ix3 (0 : Fin 1) (0 : Fin 1) p := ⟨x 2, by
    funext a
    match a with
    | ⟨0, _⟩ => exact Fin.ext (by have h0 : (x 0).val < 1 := (x 0).isLt; show (x 0).val = 0; omega)
    | ⟨1, _⟩ => exact Fin.ext (by have h1 : (x 1).val < 1 := (x 1).isLt; show (x 1).val = 0; omega)
    | ⟨2, _⟩ => rfl⟩
  refine (rowPiece off hoff x0 x1 h hred hφ hacc hcast p).trans ?_
  unfold rowMins rowLeast
  have e : (⟨off + p.val, by have := p.isLt; omega⟩ : Fin 4096)
      = (Rect.unit (s := S1x1x4096) ![0, 0, off] S1x1x512.size inb).emb (ix3 (0 : Fin 1) (0 : Fin 1) p) 2 :=
    Fin.ext (by show off + p.val = off + 1 * p.val; omega)
  rw [e]

/-- The row minima's buffer after the body. -/
theorem outX_apply (x0 : Vec Ideal S1x4096x5 .f32) (x1 : Vec Ideal S1x5x4096 .f32) (y : S1x1x4096.Idx) :
    outX x0 x1 y = rowMins x0 x1 y := by
  unfold outX wideA wideB
  rw [View.ld_unit_zero (S := S1x4096x5) zeros3, View.ld_unit_zero (S := S1x5x4096) zeros3]
  unfold k0_pay3 k0_pay1 k0_pay23 k0_pay20 k0_pay18 k0_pay16 k0_pay14 k0_pay13 k0_pay10 k0_pay8
    k0_pay2 k0_pay22 k0_pay19 k0_pay17 k0_pay15 k0_pay12 k0_pay9 k0_pay7
  refine View.canon_apply_of_pieces (Val := Elt Ideal) (S := S1x1x4096) (e := .f32) (rowMins x0 x1) _ ?_ y (coverX _ _ _ _ _ _ _ _ y)
  intro pc hpc
  simp only [List.mem_cons, List.mem_nil_iff, or_false] at hpc
  rcases hpc with rfl | rfl | rfl | rfl | rfl | rfl | rfl | rfl
  · intro x; dsimp only at x ⊢; exact piece_ok 3584 (by norm_num) x0 x1 slices_S4096x20_o3584_0_S512x20 reduces_S512x4096_S512 (.inl rfl) rfl shapeCasts_S512_S1x1x512 inb_S1x1x4096_S1x1x512_0_0_3584 x
  · intro x; dsimp only at x ⊢; exact piece_ok 3072 (by norm_num) x0 x1 slices_S4096x20_o3072_0_S512x20 reduces_S512x4096_S512 (.inl rfl) rfl shapeCasts_S512_S1x1x512 inb_S1x1x4096_S1x1x512_0_0_3072 x
  · intro x; dsimp only at x ⊢; exact piece_ok 2560 (by norm_num) x0 x1 slices_S4096x20_o2560_0_S512x20 reduces_S512x4096_S512 (.inl rfl) rfl shapeCasts_S512_S1x1x512 inb_S1x1x4096_S1x1x512_0_0_2560 x
  · intro x; dsimp only at x ⊢; exact piece_ok 2048 (by norm_num) x0 x1 slices_S4096x20_o2048_0_S512x20 reduces_S512x4096_S512 (.inl rfl) rfl shapeCasts_S512_S1x1x512 inb_S1x1x4096_S1x1x512_0_0_2048 x
  · intro x; dsimp only at x ⊢; exact piece_ok 1536 (by norm_num) x0 x1 slices_S4096x20_o1536_0_S512x20 reduces_S512x4096_S512 (.inl rfl) rfl shapeCasts_S512_S1x1x512 inb_S1x1x4096_S1x1x512_0_0_1536 x
  · intro x; dsimp only at x ⊢; exact piece_ok 1024 (by norm_num) x0 x1 slices_S4096x20_o1024_0_S512x20 reduces_S512x4096_S512 (.inl rfl) rfl shapeCasts_S512_S1x1x512 inb_S1x1x4096_S1x1x512_0_0_1024 x
  · intro x; dsimp only at x ⊢; exact piece_ok 512 (by norm_num) x0 x1 slices_S4096x20_o512_0_S512x20 reduces_S512x4096_S512 (.inl rfl) rfl shapeCasts_S512_S1x1x512 inb_S1x1x4096_S1x1x512_0_0_512 x
  · intro x; dsimp only at x ⊢; exact piece_ok 0 (by norm_num) x0 x1 slices_S4096x20_o0_0_S512x20 reduces_S512x4096_S512 (.inl rfl) rfl shapeCasts_S512_S1x1x512 inb_S1x1x4096_S1x1x512_0_0_0 x

/-- The least of `f` over the 512 rows from row `off`. -/
def groupMin (f : Fin 4096 → EReal) (off : Nat) (hoff : off + 512 ≤ 4096) : EReal :=
  (Finset.univ : Finset (Fin 512)).fold min (Ideal.ofBits .f32 0x7F800000#32) (fun p => f ⟨off + p.val, by have := p.isLt; omega⟩)

/-- The eight groups' least values merged by `min`, from +∞. -/
def mergedMin (f : Fin 4096 → EReal) : EReal :=
  min (min (min (min (min (min (min (min (Ideal.ofBits .f32 0x7F800000#32)
    (groupMin f 0 (by norm_num))) (groupMin f 512 (by norm_num))) (groupMin f 1024 (by norm_num))) (groupMin f 1536 (by norm_num)))
    (groupMin f 2048 (by norm_num))) (groupMin f 2560 (by norm_num))) (groupMin f 3072 (by norm_num))) (groupMin f 3584 (by norm_num))

/-- The entrywise minimum of two vectors at an index, from the two entries. -/
theorem min_at {s : Shape} {φ : FTy} (a b : FVec Ideal s φ) (i : s.Idx) (u v : EReal) (ha : a i = u) (hb : b i = v) :
    minimumf a b i = min u v := by
  rw [← ha, ← hb]; rfl

/-- The column minima's buffer after the body: the eight groups' least entries of column q merged from +∞. -/
theorem outY_apply (x0 : Vec Ideal S1x4096x5 .f32) (x1 : Vec Ideal S1x5x4096 .f32) (q : Fin 4096) :
    outY x0 x1 (ix3 (0 : Fin 1) (0 : Fin 1) q) = mergedMin (fun P => prodEntry x0 x1 P q) := by
  unfold outY wideA wideB
  rw [View.ld_unit_zero (S := S1x4096x5) zeros3, View.ld_unit_zero (S := S1x5x4096) zeros3, View.canon_unit_zero zeros3]
  have c0 := colPiece 0 (by norm_num) x0 x1 slices_S4096x20_o0_0_S512x20 reduces_S512x4096_S4096 (.inl rfl) rfl q
  have c1 := colPiece 512 (by norm_num) x0 x1 slices_S4096x20_o512_0_S512x20 reduces_S512x4096_S4096 (.inl rfl) rfl q
  have c2 := colPiece 1024 (by norm_num) x0 x1 slices_S4096x20_o1024_0_S512x20 reduces_S512x4096_S4096 (.inl rfl) rfl q
  have c3 := colPiece 1536 (by norm_num) x0 x1 slices_S4096x20_o1536_0_S512x20 reduces_S512x4096_S4096 (.inl rfl) rfl q
  have c4 := colPiece 2048 (by norm_num) x0 x1 slices_S4096x20_o2048_0_S512x20 reduces_S512x4096_S4096 (.inl rfl) rfl q
  have c5 := colPiece 2560 (by norm_num) x0 x1 slices_S4096x20_o2560_0_S512x20 reduces_S512x4096_S4096 (.inl rfl) rfl q
  have c6 := colPiece 3072 (by norm_num) x0 x1 slices_S4096x20_o3072_0_S512x20 reduces_S512x4096_S4096 (.inl rfl) rfl q
  have c7 := colPiece 3584 (by norm_num) x0 x1 slices_S4096x20_o3584_0_S512x20 reduces_S512x4096_S4096 (.inl rfl) rfl q
  unfold k0_pay4 k0_pay21 k0_pay11 k0_pay7 k0_pay9 k0_pay12 k0_pay15 k0_pay17 k0_pay19 k0_pay22 k0_pay2
  refine (addUnits_apply _ _ q).trans ?_
  unfold mergedMin groupMin
  refine min_at _ _ _ _ _ ?_ c7
  refine min_at _ _ _ _ _ ?_ c6
  refine min_at _ _ _ _ _ ?_ c5
  refine min_at _ _ _ _ _ ?_ c4
  refine min_at _ _ _ _ _ ?_ c3
  refine min_at _ _ _ _ _ ?_ c2
  refine min_at _ _ _ _ _ ?_ c1
  refine min_at _ _ _ _ _ ?_ c0
  rfl

end Cert.KernelIdeal.Buf

end
-- ==== Proof.ArrayValue.lean ====
/-
  From the blocks to the whole result arrays.

  Batch t reads block t of A and of B (the blocks are the t-th slabs along the leading axis) and writes block t
  of each result. So after the four batches entry (b, 0, i) of the row minima's array is the least of row i of
  batch b's product, and entry (b, 0, q) of the column minima's array is batch b's merged column minimum: each
  array is one function of the arrays A and B as the launch finds them.
-/
import proofs.«104659_g48447231099485_cont_8to1_c_557_14_alg».proof.Proof.BufferValue

set_option maxRecDepth 16384

noncomputable section

namespace Cert.KernelIdeal.Arr

open Cert.KernelIdeal Cert.KernelIdeal.Gen Cert.KernelIdeal.Fr Cert.KernelIdeal.Body Cert.KernelIdeal.Buf
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Slab b of A, as a block; slab b of B. -/
def slabA (A : S4x4096x5.Idx → EReal) (b : Fin 4) : Vec Ideal S1x4096x5 .f32 := fun y => A (ix3 b (y 1) (y 2))
def slabB (B : S4x5x4096.Idx → EReal) (b : Fin 4) : Vec Ideal S1x5x4096 .f32 := fun y => B (ix3 b (y 1) (y 2))

/-- The merged column minimum of a pair of blocks (the eight groups of rows, from +∞). -/
def colMerged (x0 : Vec Ideal S1x4096x5 .f32) (x1 : Vec Ideal S1x5x4096 .f32) (q : Fin 4096) : EReal :=
  mergedMin (fun P => prodEntry x0 x1 P q)

/-- The two result arrays as functions of A and B. -/
def rowArray (A : S4x4096x5.Idx → EReal) (B : S4x5x4096.Idx → EReal) : S4x1x4096.Idx → EReal :=
  fun i => rowLeast (slabA A (i 0)) (slabB B (i 0)) (i 2)
def colArray (A : S4x4096x5.Idx → EReal) (B : S4x5x4096.Idx → EReal) : S4x1x4096.Idx → EReal :=
  fun i => colMerged (slabA A (i 0)) (slabB B (i 0)) (i 2)

/-- The index maps over the four batches: every window's block index is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Batch t as a batch number below 4. -/
def batchOf (t : Fin cfg0.N) : Fin 4 := ⟨t.val, by have := t.isLt; have hN : cfg0.N = 4 := N_0; omega⟩

/-- Block t of A as the launch finds it is slab t of the array. -/
theorem iblkA_eq (c : Dev nD) (t : Fin cfg0.N) : iblk m c 0 t = slabA (V m c main_v7) (batchOf t) := by
  obtain ⟨e0, e1, e2, -⟩ := index_facts t
  funext y
  show V m c main_v7 (((cfg0.win 0).blk t).view.emb y) = V m c main_v7 (ix3 (batchOf t) (y 1) (y 2))
  refine congrArg (V m c main_v7) (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 4096 + 1 * (y 1).val = (y 1).val; omega
  | ⟨2, _⟩ => show win0_0.index t (2 : Fin 3) * 5 + 1 * (y 2).val = (y 2).val; omega

/-- Block t of B likewise. -/
theorem iblkB_eq (c : Dev nD) (t : Fin cfg0.N) : iblk m c 1 t = slabB (V m c main_v12) (batchOf t) := by
  obtain ⟨-, -, -, e0, e1, e2, -⟩ := index_facts t
  funext y
  show V m c main_v12 (((cfg0.win 1).blk t).view.emb y) = V m c main_v12 (ix3 (batchOf t) (y 1) (y 2))
  refine congrArg (V m c main_v12) (funext fun a => Fin.ext ?_)
  match a with
  | ⟨0, _⟩ => show win0_1.index t (0 : Fin 3) * 1 + 1 * (y 0).val = t.val; have hy : (y 0).val < 1 := (y 0).isLt; omega
  | ⟨1, _⟩ => show win0_1.index t (1 : Fin 3) * 5 + 1 * (y 1).val = (y 1).val; omega
  | ⟨2, _⟩ => show win0_1.index t (2 : Fin 3) * 4096 + 1 * (y 2).val = (y 2).val; omega

/-- What batch t writes back to the row minima's array is block t of `rowArray`. -/
theorem flushedX_eq (c : Dev nD) (t : Fin cfg0.N) :
    (dats m 0 c).flushed 2 t = ((cfg0.win 2).blk t).view.read (Elt Ideal) (rowArray (V m c main_v7) (V m c main_v12)) := by
  show (cfg0.win 2).cut (grid0.coords t) ((dats m 0 c).after 2 t) = _
  rw [afterX, iblkA_eq, iblkB_eq]
  obtain ⟨-, -, -, -, -, -, e0, e1, e2, -⟩ := index_facts t
  funext y
  show outX (slabA (V m c main_v7) (batchOf t)) (slabB (V m c main_v12) (batchOf t)) y
    = rowArray (V m c main_v7) (V m c main_v12) (((cfg0.win 2).blk t).view.emb y)
  rw [outX_apply]
  unfold rowMins rowArray
  have hb : (((cfg0.win 2).blk t).view.emb y) 0 = batchOf t := Fin.ext (by
    show win0_2.index t (0 : Fin 3) * 1 + 1 * (y 0).val = t.val; have hy : (y 0).val < 1 := (y 0).isLt; omega)
  have hi : (((cfg0.win 2).blk t).view.emb y) 2 = y 2 := Fin.ext (by
    show win0_2.index t (2 : Fin 3) * 4096 + 1 * (y 2).val = (y 2).val; omega)
  rw [hb, hi]

/-- And to the column minima's array, block t of `colArray`. -/
theorem flushedY_eq (c : Dev nD) (t : Fin cfg0.N) :
    (dats m 0 c).flushed 3 t = ((cfg0.win 3).blk t).view.read (Elt Ideal) (colArray (V m c main_v7) (V m c main_v12)) := by
  show (cfg0.win 3).cut (grid0.coords t) ((dats m 0 c).after 3 t) = _
  rw [afterY, iblkA_eq, iblkB_eq]
  obtain ⟨-, -, -, -, -, -, -, -, -, e0, e1, e2⟩ := index_facts t
  funext y
  show outY (slabA (V m c main_v7) (batchOf t)) (slabB (V m c main_v12) (batchOf t)) y
    = colArray (V m c main_v7) (V m c main_v12) (((cfg0.win 3).blk t).view.emb y)
  have hy : y = ix3 (0 : Fin 1) (0 : Fin 1) (y 2) := by
    funext a
    match a with
    | ⟨0, _⟩ => exact Fin.ext (by have h0 : (y 0).val < 1 := (y 0).isLt; show (y 0).val = 0; omega)
    | ⟨1, _⟩ => exact Fin.ext (by have h1 : (y 1).val < 1 := (y 1).isLt; show (y 1).val = 0; omega)
    | ⟨2, _⟩ => rfl
  have hb : (((cfg0.win 3).blk t).view.emb y) 0 = batchOf t := Fin.ext (by
    show win0_3.index t (0 : Fin 3) * 1 + 1 * (y 0).val = t.val; have hy0 : (y 0).val < 1 := (y 0).isLt; omega)
  have hi : (((cfg0.win 3).blk t).view.emb y) 2 = y 2 := Fin.ext (by
    show win0_3.index t (2 : Fin 3) * 4096 + 1 * (y 2).val = (y 2).val; omega)
  unfold colArray
  rw [hb, hi]
  conv_lhs => rw [hy]
  exact outY_apply _ _ (y 2)

/-- An index is in batch t's block of a result array iff each coordinate is in the block's range. -/
theorem mem_blkX (t : Fin cfg0.N) (i : S4x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v13_0).slice (win0_2.rect t)).set ↔ _
  rw [View.set_slice_whole, Rect.mem_set_unit]
  exact Iff.rfl
theorem mem_blkY (t : Fin cfg0.N) (i : S4x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v13_1).slice (win0_3.rect t)).set ↔ _
  rw [View.set_slice_whole, Rect.mem_set_unit]
  exact Iff.rfl

/-- Every index of a result array lies in the block of the batch its leading coordinate names. -/
theorem coveredX (i : S4x1x4096.Idx) : ∃ t : Fin cfg0.N, (cfg0.win 2).flush t = true ∧ i ∈ ((cfg0.win 2).blk t).view.set := by
  have hN : cfg0.N = 4 := N_0
  have hi0 : (i 0).val < 4 := (i 0).isLt
  have hi1 : (i 1).val < 1 := (i 1).isLt
  have hi2 : (i 2).val < 4096 := (i 2).isLt
  have ht : (i 0).val < cfg0.N := by omega
  obtain ⟨-, -, -, -, -, -, e0, e1, e2, -⟩ := index_facts ⟨(i 0).val, ht⟩
  have e0' : win0_2.index ⟨(i 0).val, ht⟩ (0 : Fin 3) = (i 0).val := e0
  refine ⟨⟨(i 0).val, ht⟩, flush0_2 _, ?_⟩
  rw [mem_blkX]
  intro a
  match a with
  | ⟨0, _⟩ => show win0_2.index ⟨(i 0).val, ht⟩ (0 : Fin 3) * 1 ≤ (i 0).val ∧ (i 0).val < win0_2.index ⟨(i 0).val, ht⟩ (0 : Fin 3) * 1 + 1; omega
  | ⟨1, _⟩ => show win0_2.index ⟨(i 0).val, ht⟩ (1 : Fin 3) * 1 ≤ (i 1).val ∧ (i 1).val < win0_2.index ⟨(i 0).val, ht⟩ (1 : Fin 3) * 1 + 1; omega
  | ⟨2, _⟩ => show win0_2.index ⟨(i 0).val, ht⟩ (2 : Fin 3) * 4096 ≤ (i 2).val ∧ (i 2).val < win0_2.index ⟨(i 0).val, ht⟩ (2 : Fin 3) * 4096 + 4096; omega

theorem coveredY (i : S4x1x4096.Idx) : ∃ t : Fin cfg0.N, (cfg0.win 3).flush t = true ∧ i ∈ ((cfg0.win 3).blk t).view.set := by
  have hN : cfg0.N = 4 := N_0
  have hi0 : (i 0).val < 4 := (i 0).isLt
  have hi1 : (i 1).val < 1 := (i 1).isLt
  have hi2 : (i 2).val < 4096 := (i 2).isLt
  have ht : (i 0).val < cfg0.N := by omega
  obtain ⟨-, -, -, -, -, -, -, -, -, e0, e1, e2⟩ := index_facts ⟨(i 0).val, ht⟩
  have e0' : win0_3.index ⟨(i 0).val, ht⟩ (0 : Fin 3) = (i 0).val := e0
  refine ⟨⟨(i 0).val, ht⟩, flush0_3 _, ?_⟩
  rw [mem_blkY]
  intro a
  match a with
  | ⟨0, _⟩ => show win0_3.index ⟨(i 0).val, ht⟩ (0 : Fin 3) * 1 ≤ (i 0).val ∧ (i 0).val < win0_3.index ⟨(i 0).val, ht⟩ (0 : Fin 3) * 1 + 1; omega
  | ⟨1, _⟩ => show win0_3.index ⟨(i 0).val, ht⟩ (1 : Fin 3) * 1 ≤ (i 1).val ∧ (i 1).val < win0_3.index ⟨(i 0).val, ht⟩ (1 : Fin 3) * 1 + 1; omega
  | ⟨2, _⟩ => show win0_3.index ⟨(i 0).val, ht⟩ (2 : Fin 3) * 4096 ≤ (i 2).val ∧ (i 2).val < win0_3.index ⟨(i 0).val, ht⟩ (2 : Fin 3) * 4096 + 4096; omega

/-- The row minima's array after the four batches. -/
theorem finalX (c : Dev nD) : (dats m 0 c).arrAt 2 cfg0.N = rowArray (V m c main_v7) (V m c main_v12) :=
  (dats m 0 c).arrAt_eq_of_cover 2 (rowArray (V m c main_v7) (V m c main_v12)) (fun t _ => flushedX_eq m c t) coveredX

/-- The column minima's array after the four batches. -/
theorem finalY (c : Dev nD) : (dats m 0 c).arrAt 3 cfg0.N = colArray (V m c main_v7) (V m c main_v12) :=
  (dats m 0 c).arrAt_eq_of_cover 3 (colArray (V m c main_v7) (V m c main_v12)) (fun t _ => flushedY_eq m c t) coveredY

end Cert.KernelIdeal.Arr

end
-- ==== Proof.Spec.lean ====
/-
  The Chamfer loss between two clouds of 4096 points in three dimensions, four batches, on the extended reals.

  For batch b, point i of the first cloud and point j of the second, the squared distance is the sum over the
  three coordinates of the squared difference. Each point takes the least squared distance to the other cloud
  (the least of 4096 values, started from +∞). The loss is the mean over the batches of the mean over a cloud's
  points of these least distances, for the first cloud, plus the same for the second. The sums start from the
  zero word and the divisors 4096 and 4 are the words the programs print; they are kept as words here because
  the same words stand on both sides and their values are needed only where a law of the reals is used.
-/
import Idealize.ShloMosaic.PureOps.Ideal
import Idealize.ShloMosaic.Lib.ValueIdx

noncomputable section

namespace Cert.Chamfer

open Idealize.ShloMosaic Idealize.ShloMosaic.ValueIdx

/-- A batch of clouds: coordinate k of point i of batch b at index (b, k, i). -/
abbrev Cloud : Type := (⟨3, ![4, 3, 4096]⟩ : Shape).Idx → EReal

/-- The words of 0, +∞, 4096 and 4 as extended reals. -/
abbrev w0 : EReal := Ideal.ofBits .f32 0x00000000#32
abbrev wInf : EReal := Ideal.ofBits .f32 0x7F800000#32
abbrev w4096 : EReal := Ideal.ofBits .f32 0x45800000#32
abbrev w4 : EReal := Ideal.ofBits .f32 0x40800000#32

/-- The squared distance between point i of x and point j of y in batch b. -/
def dist (x y : Cloud) (b : Fin 4) (i j : Fin 4096) : EReal :=
  ∑ k : Fin 3, (x (ix3 b k i) - y (ix3 b k j)) * (x (ix3 b k i) - y (ix3 b k j))

/-- The least squared distance from point i of x to the points of y. -/
def nearestInY (x y : Cloud) (b : Fin 4) (i : Fin 4096) : EReal :=
  (Finset.univ : Finset (Fin 4096)).fold min wInf (fun j => dist x y b i j)

/-- The least squared distance from point j of y to the points of x. -/
def nearestInX (x y : Cloud) (b : Fin 4) (j : Fin 4096) : EReal :=
  (Finset.univ : Finset (Fin 4096)).fold min wInf (fun i => dist x y b i j)

/-- The mean over the batches of the mean over the points of a field of least distances. -/
def meanOfMeans (f : Fin 4 → Fin 4096 → EReal) : EReal :=
  Ideal.div (w0 + ∑ b : Fin 4, Ideal.div (w0 + ∑ i : Fin 4096, f b i) w4096) w4

/-- The Chamfer loss. -/
def loss (x y : Cloud) : EReal :=
  meanOfMeans (nearestInY x y) + meanOfMeans (nearestInX x y)

end Cert.Chamfer

end
-- ==== Proof.HostSides.lean ====
/-
  The host computations around the launch, read entry by entry on the extended reals.

  Before the launch the first cloud is transposed to (batch, point, coordinate) and augmented along the coordinate
  axis to five columns: −2 times the three coordinates, the squared norm of the point (the sum of the squares of its
  three coordinates, started from the zero word), and the constant 1. The second cloud is augmented along its
  coordinate axis to five rows: its three coordinates, the constant 1, and the squared norm of the point. The inner
  product of a row of the first with a column of the second is then the squared norm of the one point, minus twice
  the inner product of the two points, plus the squared norm of the other: the squared distance. After the launch
  the two fields of least distances are each summed over all batches and points (started from the zero word),
  divided by the word of 16384 = 4 · 4096, and added.

  A concatenation at an index reads the piece whose span holds the coordinate on the joined axis; a broadcast reads
  its operand at the kept coordinates; a sum over one axis is the starting word plus the sum over that axis's
  coordinate, and a sum over every axis of a (4, 1, 4096) array is the double sum over batches and points.
-/
import proofs.«104659_g48447231099485_cont_8to1_c_557_14_alg».proof.Proof.Gen.KernelIdeal
import proofs.«104659_g48447231099485_cont_8to1_c_557_14_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.Host

open Idealize.ShloMosaic Idealize.ShloMosaic.ValueIdx Cert.Chamfer
open Cert.KernelIdeal Cert.KernelIdeal.Gen

/-! ## The three host computations, as the program writes them -/

/-- The first cloud transposed to (batch, point, coordinate). -/
def xT (x : FVec Ideal S4x3x4096 .f32) : FVec Ideal S4x4096x3 .f32 :=
  transpose S4x4096x3 [0, 2, 1] x transposes_S4x3x4096_S4x4096x3_0_2_1

/-- The first operand: per point, −2 times its coordinates, its squared norm, and 1. -/
def hostA (x : FVec Ideal S4x3x4096 .f32) : FVec Ideal S4x4096x5 .f32 :=
  concatenate S4x4096x5 2 [⟨S4x4096x3, mulf (broadcastInDim S4x4096x3 ![] bcast_S_S4x4096x3 (constant (F := Ideal) S_ .f32 0xC0000000#32)) (xT x)⟩,
    ⟨S4x4096x1, broadcastInDim S4x4096x1 ![0, 1] bcast_S4x4096_S4x4096x1_0_1 (Host.reduceAdd (mulf (xT x) (xT x)) (constant (F := Ideal) S_ .f32 0x00000000#32) reducesTo_S4x4096x3_S4x4096_d2 h_S_)⟩,
    ⟨S4x4096x1, broadcastInDim S4x4096x1 ![] bcast_S_S4x4096x1 (constant (F := Ideal) S_ .f32 0x3F800000#32)⟩] concatenates_S4x4096x3_S4x4096x1_S4x4096x1_S4x4096x5_d2

/-- The second operand: per point, its coordinates, 1, and its squared norm. -/
def hostB (y : FVec Ideal S4x3x4096 .f32) : FVec Ideal S4x5x4096 .f32 :=
  concatenate S4x5x4096 1 [⟨S4x3x4096, y⟩,
    ⟨S4x1x4096, broadcastInDim S4x1x4096 ![] bcast_S_S4x1x4096 (constant (F := Ideal) S_ .f32 0x3F800000#32)⟩,
    ⟨S4x1x4096, broadcastInDim S4x1x4096 ![0, 2] bcast_S4x4096_S4x1x4096_0_2 (Host.reduceAdd (mulf y y) (constant (F := Ideal) S_ .f32 0x00000000#32) reducesTo_S4x3x4096_S4x4096_d1 h_S_)⟩] concatenates_S4x3x4096_S4x1x4096_S4x1x4096_S4x5x4096_d1

/-- The final averaging of the two fields of least distances. -/
def hostTail (X Y : FVec Ideal S4x1x4096 .f32) : FVec Ideal S_ .f32 :=
  addf (Host.divf (Host.reduceAdd X (constant (F := Ideal) S_ .f32 0x00000000#32) reducesTo_S4x1x4096_S_d0_1_2 h_S_) (constant (F := Ideal) S_ .f32 0x46800000#32))
       (Host.divf (Host.reduceAdd Y (constant (F := Ideal) S_ .f32 0x00000000#32) reducesTo_S4x1x4096_S_d0_1_2 h_S_) (constant (F := Ideal) S_ .f32 0x46800000#32))

/-! ## Sums over index sets -/

/-- A rank-three index set whose middle extent is one is the product of the outer coordinates' ranges … -/
def idxEquivMid {n0 n2 : Nat} : (⟨3, ![n0, 1, n2]⟩ : Shape).Idx ≃ Fin n0 × Fin n2 where
  toFun i := (i 0, i 2)
  invFun p := ix3 p.1 (0 : Fin 1) p.2
  left_inv i := by
    funext a
    match a with
    | ⟨0, _⟩ => rfl
    | ⟨1, _⟩ => exact Subsingleton.elim (α := Fin 1) _ _
    | ⟨2, _⟩ => rfl
  right_inv _ := rfl

/-- … so a sum over it is the double sum over the outer coordinates. -/
theorem sum_idxMid {M : Type*} [AddCommMonoid M] {n0 n2 : Nat} (f : (⟨3, ![n0, 1, n2]⟩ : Shape).Idx → M) :
    ∑ i, f i = ∑ a : Fin n0, ∑ c : Fin n2, f (ix3 a (0 : Fin 1) c) := by
  rw [← Equiv.sum_comp (idxEquivMid (n0 := n0) (n2 := n2)).symm f, Fintype.sum_prod_type]
  rfl

/-- The sum over every batch and point of a field, started from the zero word. -/
theorem total_apply (X : FVec Ideal S4x1x4096 .f32) (j : S_.Idx) :
    Host.reduceAdd X (constant (F := Ideal) S_ .f32 0x00000000#32) reducesTo_S4x1x4096_S_d0_1_2 h_S_ j
      = w0 + ∑ b : Fin 4, ∑ i : Fin 4096, X (ix3 b (0 : Fin 1) i) := by
  simp only [Host.reduceAdd, Ideal.hostReduceAdd_def]
  refine (Ideal.hostReduceAdd_total reducesTo_S4x1x4096_S_d0_1_2 (fun b => b.elim0) X _ j).trans ?_
  exact congrArg (w0 + ·) (sum_idxMid X)

/-- The final averaging at its one index. -/
theorem hostTail_apply (X Y : FVec Ideal S4x1x4096 .f32) :
    hostTail X Y ix0 = Ideal.div (w0 + ∑ b : Fin 4, ∑ i : Fin 4096, X (ix3 b (0 : Fin 1) i)) (Ideal.ofBits .f32 0x46800000#32)
      + Ideal.div (w0 + ∑ b : Fin 4, ∑ j : Fin 4096, Y (ix3 b (0 : Fin 1) j)) (Ideal.ofBits .f32 0x46800000#32) := by
  unfold hostTail
  show Ideal.div (Host.reduceAdd X _ reducesTo_S4x1x4096_S_d0_1_2 h_S_ ix0) (Ideal.ofBits .f32 0x46800000#32)
      + Ideal.div (Host.reduceAdd Y _ reducesTo_S4x1x4096_S_d0_1_2 h_S_ ix0) (Ideal.ofBits .f32 0x46800000#32) = _
  rw [total_apply X ix0, total_apply Y ix0]

/-! ## The squared norms -/

theorem reduces_x : S4x4096x3.Reduces [2] S4x4096 := by decide
theorem reduces_y : S4x3x4096.Reduces [1] S4x4096 := by decide

/-- The transposed cloud at (batch, point, coordinate). -/
theorem xT_apply (x : FVec Ideal S4x3x4096 .f32) (b : Fin 4) (i : Fin 4096) (k : Fin 3) :
    xT x (ix3 b i k) = x (ix3 b k i) := by
  unfold xT
  exact transpose_apply [0, 2, 1] x transposes_S4x3x4096_S4x4096x3_0_2_1 (ix3 b i k) (ix3 b k i) (fun c => match c with
    | ⟨0, _⟩ => rfl
    | ⟨1, _⟩ => rfl
    | ⟨2, _⟩ => rfl)

/-- The squared norm of point i of the first cloud. -/
theorem normX_apply (x : FVec Ideal S4x3x4096 .f32) (b : Fin 4) (i : Fin 4096) :
    Host.reduceAdd (mulf (xT x) (xT x)) (constant (F := Ideal) S_ .f32 0x00000000#32) reducesTo_S4x4096x3_S4x4096_d2 h_S_ (ix2 b i)
      = w0 + ∑ k' : Fin 3, x (ix3 b k' i) * x (ix3 b k' i) := by
  generalize hz : mulf (xT x) (xT x) = z
  simp only [Host.reduceAdd, Ideal.hostReduceAdd_def]
  rw [Ideal.hostReduceAdd_single reducesTo_S4x4096x3_S4x4096_d2 reduces_x]
  show w0 + ∑ k' : Fin 3, z (reduces_x.lift (ix2 b i) k') = _
  refine congrArg (w0 + ·) (Finset.sum_congr rfl fun k' _ => ?_)
  have hl : reduces_x.lift (ix2 b i) k' = ix3 b i k' :=
    funext fun c => Fin.ext (by match c with | ⟨0, _⟩ => rfl | ⟨1, _⟩ => rfl | ⟨2, _⟩ => rfl)
  rw [hl, ← hz]
  show xT x (ix3 b i k') * xT x (ix3 b i k') = _
  rw [xT_apply]

/-- The squared norm of point j of the second cloud. -/
theorem normY_apply (y : FVec Ideal S4x3x4096 .f32) (b : Fin 4) (j : Fin 4096) :
    Host.reduceAdd (mulf y y) (constant (F := Ideal) S_ .f32 0x00000000#32) reducesTo_S4x3x4096_S4x4096_d1 h_S_ (ix2 b j)
      = w0 + ∑ k' : Fin 3, y (ix3 b k' j) * y (ix3 b k' j) := by
  generalize hz : mulf y y = z
  simp only [Host.reduceAdd, Ideal.hostReduceAdd_def]
  rw [Ideal.hostReduceAdd_single reducesTo_S4x3x4096_S4x4096_d1 reduces_y]
  show w0 + ∑ k' : Fin 3, z (reduces_y.lift (ix2 b j) k') = _
  refine congrArg (w0 + ·) (Finset.sum_congr rfl fun k' _ => ?_)
  have hl : reduces_y.lift (ix2 b j) k' = ix3 b k' j :=
    funext fun c => Fin.ext (by match c with | ⟨0, _⟩ => rfl | ⟨1, _⟩ => rfl | ⟨2, _⟩ => rfl)
  rw [hl, ← hz]
  rfl

/-! ## The augmented operands -/

/-- The second operand at (batch, row, point). -/
theorem hostB_apply (y : FVec Ideal S4x3x4096 .f32) (b : Fin 4) (k : Fin 5) (j : Fin 4096) :
    hostB y (ix3 b k j) = if h : k.val < 3 then y (ix3 b (⟨k.val, h⟩ : Fin 3) j)
      else if k.val = 3 then Ideal.ofBits .f32 0x3F800000#32 else w0 + ∑ k' : Fin 3, y (ix3 b k' j) * y (ix3 b k' j) := by
  unfold hostB
  by_cases h : k.val < 3
  · rw [dif_pos h]
    exact concatenate_apply_piece _ _ _ (ix3 b k j)
      0 (by show (0 : ℕ) < 3; decide) S4x3x4096 y (by rfl) (by rfl) 0 (by rfl) (ix3 b (⟨k.val, h⟩ : Fin 3) j)
      (fun c hc => by match c with | ⟨0, _⟩ => rfl | ⟨1, _⟩ => exact (hc rfl).elim | ⟨2, _⟩ => rfl)
      (by show 0 + k.val = k.val; omega)
  · rw [dif_neg h]
    by_cases h3 : k.val = 3
    · rw [if_pos h3]
      refine Eq.trans (concatenate_apply_piece _ _ _ (ix3 b k j)
        1 (by show (1 : ℕ) < 3; decide) S4x1x4096 _ (by rfl) (by rfl) 3 (by rfl) (ix3 b (0 : Fin 1) j)
        (fun c hc => by match c with | ⟨0, _⟩ => rfl | ⟨1, _⟩ => exact (hc rfl).elim | ⟨2, _⟩ => rfl)
        (by show 3 + 0 = k.val; omega)) ?_
      exact broadcastInDim_apply _ bcast_S_S4x1x4096 _ _ ix0 (fun a => a.elim0)
    · rw [if_neg h3]
      refine Eq.trans (concatenate_apply_piece _ _ _ (ix3 b k j)
        2 (by show (2 : ℕ) < 3; decide) S4x1x4096 _ (by rfl) (by rfl) 4 (by rfl) (ix3 b (0 : Fin 1) j)
        (fun c hc => by match c with | ⟨0, _⟩ => rfl | ⟨1, _⟩ => exact (hc rfl).elim | ⟨2, _⟩ => rfl)
        (by show 4 + 0 = k.val; omega)) ?_
      refine (broadcastInDim_apply _ bcast_S4x4096_S4x1x4096_0_2 _ _ (ix2 b j) (fun a => match a with
        | ⟨0, _⟩ => by show b.val = if (4 : Nat) = 1 then 0 else b.val; rw [if_neg (by decide)]
        | ⟨1, _⟩ => by show j.val = if (4096 : Nat) = 1 then 0 else j.val; rw [if_neg (by decide)])).trans ?_
      exact normY_apply y b j

/-- The first operand at (batch, point, column). -/
theorem hostA_apply (x : FVec Ideal S4x3x4096 .f32) (b : Fin 4) (i : Fin 4096) (k : Fin 5) :
    hostA x (ix3 b i k) = if h : k.val < 3 then Ideal.ofBits .f32 0xC0000000#32 * x (ix3 b (⟨k.val, h⟩ : Fin 3) i)
      else if k.val = 3 then w0 + ∑ k' : Fin 3, x (ix3 b k' i) * x (ix3 b k' i) else Ideal.ofBits .f32 0x3F800000#32 := by
  unfold hostA
  by_cases h : k.val < 3
  · rw [dif_pos h]
    refine Eq.trans (concatenate_apply_piece _ _ _ (ix3 b i k)
      0 (by show (0 : ℕ) < 3; decide) S4x4096x3 _ (by rfl) (by rfl) 0 (by rfl) (ix3 b i (⟨k.val, h⟩ : Fin 3))
      (fun c hc => by match c with | ⟨0, _⟩ => rfl | ⟨1, _⟩ => rfl | ⟨2, _⟩ => exact (hc rfl).elim)
      (by show 0 + k.val = k.val; omega)) ?_
    show broadcastInDim S4x4096x3 ![] bcast_S_S4x4096x3 (constant (F := Ideal) S_ .f32 0xC0000000#32) (ix3 b i (⟨k.val, h⟩ : Fin 3))
      * xT x (ix3 b i (⟨k.val, h⟩ : Fin 3)) = _
    rw [xT_apply, broadcastInDim_apply _ bcast_S_S4x4096x3 _ _ ix0 (fun a => a.elim0)]
    rfl
  · rw [dif_neg h]
    by_cases h3 : k.val = 3
    · rw [if_pos h3]
      refine Eq.trans (concatenate_apply_piece _ _ _ (ix3 b i k)
        1 (by show (1 : ℕ) < 3; decide) S4x4096x1 _ (by rfl) (by rfl) 3 (by rfl) (ix3 b i (0 : Fin 1))
        (fun c hc => by match c with | ⟨0, _⟩ => rfl | ⟨1, _⟩ => rfl | ⟨2, _⟩ => exact (hc rfl).elim)
        (by show 3 + 0 = k.val; omega)) ?_
      refine (broadcastInDim_apply _ bcast_S4x4096_S4x4096x1_0_1 _ _ (ix2 b i) (fun a => match a with
        | ⟨0, _⟩ => by show b.val = if (4 : Nat) = 1 then 0 else b.val; rw [if_neg (by decide)]
        | ⟨1, _⟩ => by show i.val = if (4096 : Nat) = 1 then 0 else i.val; rw [if_neg (by decide)])).trans ?_
      exact normX_apply x b i
    · rw [if_neg h3]
      refine Eq.trans (concatenate_apply_piece _ _ _ (ix3 b i k)
        2 (by show (2 : ℕ) < 3; decide) S4x4096x1 _ (by rfl) (by rfl) 4 (by rfl) (ix3 b i (0 : Fin 1))
        (fun c hc => by match c with | ⟨0, _⟩ => rfl | ⟨1, _⟩ => rfl | ⟨2, _⟩ => exact (hc rfl).elim)
        (by show 4 + 0 = k.val; omega)) ?_
      exact broadcastInDim_apply _ bcast_S_S4x4096x1 _ _ ix0 (fun a => a.elim0)

end Cert.KernelIdeal.Host

end
-- ==== Proof.Algebra.lean ====
/-
  The algebra of the Chamfer loss on the extended reals, with no program in sight.

  The words 0, 1, -2, 4, 4096, 16384 and +∞ denote those numbers. For real entries: a contraction widened to twenty
  terms, fifteen of which carry a factor x - x = 0, is the five-term one; the product of the augmented rows
  (-2x, |x|², 1) and (y, 1, |y|²) is |x|² - 2 x·y + |y|² = |x - y|²; the least of 4096 values is the least of the
  leasts of eight groups of 512, both being the greatest lower bound of the same family; the least of finitely many
  reals (at least one) is a real; and dividing the total of 4 · 4096 reals by 16384 is the mean of the four means.
-/
import proofs.«104659_g48447231099485_cont_8to1_c_557_14_alg».proof.Proof.Spec
import Idealize.ShloMosaic.PureOps.Ideal
import Idealize.ShloMosaic.PureOps.Ideal.Laws

noncomputable section

namespace Cert.Chamfer.Alg

open Cert.Chamfer Idealize.ShloMosaic

/-! ## The words' values -/

theorem w0_eq : (w0 : EReal) = 0 := by
  simp [w0, Ideal.ofBits, Ideal.ieee]

theorem w4096_eq : (w4096 : EReal) = ((4096 : ℝ) : EReal) := by
  simp [w4096, Ideal.ofBits, Ideal.ieee, -EReal.coe_mul]; norm_num

theorem w4_eq : (w4 : EReal) = ((4 : ℝ) : EReal) := by
  simp [w4, Ideal.ofBits, Ideal.ieee, -EReal.coe_mul]; norm_num

theorem w16384_eq : Ideal.ofBits .f32 0x46800000#32 = ((16384 : ℝ) : EReal) := by
  simp [Ideal.ofBits, Ideal.ieee, -EReal.coe_mul]; norm_num

theorem wNeg2_eq : Ideal.ofBits .f32 0xC0000000#32 = ((-2 : ℝ) : EReal) := by
  simp [Ideal.ofBits, Ideal.ieee, -EReal.coe_mul]; norm_num

theorem w1_eq : Ideal.ofBits .f32 0x3F800000#32 = ((1 : ℝ) : EReal) := by
  simp [Ideal.ofBits, Ideal.ieee, -EReal.coe_mul]; norm_num

theorem wInf_eq : (wInf : EReal) = ⊤ := by
  simp [wInf, Ideal.ofBits, Ideal.ieee]

/-! ## Finite sums of reals in the extended reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## (2) the augmented rows -/

theorem aug_dot (x y : Fin 3 → ℝ) :
    ∑ r : Fin 5, (![-2 * x 0, -2 * x 1, -2 * x 2, 0 + ∑ k : Fin 3, x k * x k, 1] : Fin 5 → ℝ) r
        * (![y 0, y 1, y 2, 1, 0 + ∑ k : Fin 3, y k * y k] : Fin 5 → ℝ) r
      = ∑ k : Fin 3, (x k - y k) * (x k - y k) := by
  simp [Fin.sum_univ_succ]
  ring

/-! ## Folds of min from ⊤ -/

/-- Below a fold of min started from +∞ is below every term. -/
theorem le_fold_min_top {ι : Type*} (s : Finset ι) (f : ι → EReal) (c : EReal) :
    c ≤ s.fold min wInf f ↔ ∀ i ∈ s, c ≤ f i := by
  rw [Finset.le_fold_min, wInf_eq]
  exact ⟨fun h => h.2, fun h => ⟨le_top, h⟩⟩

/-- The least of finitely many reals, started from +∞, is +∞ or a real; over a nonempty set it is a real. -/
theorem fold_min_real_finset {ι : Type*} (s : Finset ι) (hs : s.Nonempty) (f : ι → ℝ) :
    ∃ r : ℝ, s.fold min wInf (fun j => ((f j : ℝ) : EReal)) = (r : EReal) := by
  classical
  induction hs using Finset.Nonempty.cons_induction with
  | singleton a =>
    refine ⟨f a, ?_⟩
    rw [Finset.fold_singleton, wInf_eq, min_top_right]
  | cons a s ha hs ih =>
    obtain ⟨r, hr⟩ := ih
    refine ⟨min (f a) r, ?_⟩
    rw [Finset.fold_cons, hr]
    exact (EReal.coe_strictMono.monotone.map_min).symm

/-! ## (4) the least of finitely many reals is a real -/

theorem fold_min_real {n : Nat} (hn : 0 < n) (f : Fin n → ℝ) :
    ∃ r : ℝ, (Finset.univ : Finset (Fin n)).fold min wInf (fun j => ((f j : ℝ) : EReal)) = (r : EReal) :=
  fold_min_real_finset Finset.univ ⟨⟨0, hn⟩, Finset.mem_univ _⟩ f

/-! ## (5) one division of the total is the mean of means -/

theorem flat_mean (g : Fin 4 → Fin 4096 → ℝ) :
    Ideal.div (w0 + ∑ b : Fin 4, ∑ i : Fin 4096, ((g b i : ℝ) : EReal)) (Ideal.ofBits .f32 0x46800000#32)
      = meanOfMeans (fun b i => ((g b i : ℝ) : EReal)) := by
  have h1 : ∀ b : Fin 4, Ideal.div (w0 + ∑ i : Fin 4096, ((g b i : ℝ) : EReal)) w4096
      = (((∑ i : Fin 4096, g b i) * (1 / 4096) : ℝ) : EReal) := by
    intro b
    rw [w0_eq, w4096_eq, zero_add, ← coe_sum, Ideal.div_coe (by norm_num), ← EReal.coe_mul]
  unfold meanOfMeans
  simp only [h1]
  simp only [← coe_sum]
  rw [w16384_eq, w4_eq, w0_eq, zero_add, zero_add, Ideal.div_coe (by norm_num), Ideal.div_coe (by norm_num),
    ← EReal.coe_mul, ← EReal.coe_mul, ← Finset.sum_mul]
  congr 1
  ring

/-! ## (3) the least over 4096 is the merge of the least over eight groups of 512 -/

/-- A bound on every member of group q of 512 is a bound at every index whose quotient by 512 is q. -/
theorem le_of_group (f : Fin 4096 → EReal) (c : EReal) (q : Nat) (hq : q < 8)
    (h : ∀ p : Fin 512, c ≤ f ⟨512 * q + p.val, by have := p.isLt; omega⟩)
    (i : Fin 4096) (hi : i.val / 512 = q) : c ≤ f i := by
  have e := h ⟨i.val % 512, Nat.mod_lt _ (by decide)⟩
  have hi' : (⟨512 * q + i.val % 512, by have := Nat.mod_lt i.val (by decide : 0 < 512); omega⟩ : Fin 4096) = i :=
    Fin.ext (by show 512 * q + i.val % 512 = i.val; omega)
  rwa [hi'] at e

theorem chunked_min (f : Fin 4096 → EReal) :
    min (min (min (min (min (min (min (min wInf
      ((Finset.univ : Finset (Fin 512)).fold min wInf (fun p => f ⟨512 * 0 + p.val, by have := p.isLt; omega⟩)))
      ((Finset.univ : Finset (Fin 512)).fold min wInf (fun p => f ⟨512 * 1 + p.val, by have := p.isLt; omega⟩)))
      ((Finset.univ : Finset (Fin 512)).fold min wInf (fun p => f ⟨512 * 2 + p.val, by have := p.isLt; omega⟩)))
      ((Finset.univ : Finset (Fin 512)).fold min wInf (fun p => f ⟨512 * 3 + p.val, by have := p.isLt; omega⟩)))
      ((Finset.univ : Finset (Fin 512)).fold min wInf (fun p => f ⟨512 * 4 + p.val, by have := p.isLt; omega⟩)))
      ((Finset.univ : Finset (Fin 512)).fold min wInf (fun p => f ⟨512 * 5 + p.val, by have := p.isLt; omega⟩)))
      ((Finset.univ : Finset (Fin 512)).fold min wInf (fun p => f ⟨512 * 6 + p.val, by have := p.isLt; omega⟩)))
      ((Finset.univ : Finset (Fin 512)).fold min wInf (fun p => f ⟨512 * 7 + p.val, by have := p.isLt; omega⟩))
    = (Finset.univ : Finset (Fin 4096)).fold min wInf f := by
  refine eq_of_forall_le_iff fun c => ?_
  simp only [le_min_iff, le_fold_min_top, Finset.mem_univ, forall_true_left]
  constructor
  · rintro ⟨⟨⟨⟨⟨⟨⟨⟨-, h0⟩, h1⟩, h2⟩, h3⟩, h4⟩, h5⟩, h6⟩, h7⟩ i
    have hq : i.val / 512 < 8 := by have := i.isLt; omega
    have hc : i.val / 512 = 0 ∨ i.val / 512 = 1 ∨ i.val / 512 = 2 ∨ i.val / 512 = 3 ∨ i.val / 512 = 4
        ∨ i.val / 512 = 5 ∨ i.val / 512 = 6 ∨ i.val / 512 = 7 := by omega
    rcases hc with e | e | e | e | e | e | e | e
    · exact le_of_group f c 0 (by decide) h0 i e
    · exact le_of_group f c 1 (by decide) h1 i e
    · exact le_of_group f c 2 (by decide) h2 i e
    · exact le_of_group f c 3 (by decide) h3 i e
    · exact le_of_group f c 4 (by decide) h4 i e
    · exact le_of_group f c 5 (by decide) h5 i e
    · exact le_of_group f c 6 (by decide) h6 i e
    · exact le_of_group f c 7 (by decide) h7 i e
  · intro h
    have ht : c ≤ wInf := by rw [wInf_eq]; exact le_top
    exact ⟨⟨⟨⟨⟨⟨⟨⟨ht, fun p => h _⟩, fun p => h _⟩, fun p => h _⟩, fun p => h _⟩, fun p => h _⟩, fun p => h _⟩,
      fun p => h _⟩, fun p => h _⟩

/-! ## (1) the widened contraction -/

theorem widened_dot (a b : Fin 5 → ℝ) :
    ∑ k : Fin 20,
      (if k.val / 5 < 2 then ((a ⟨k.val % 5, Nat.mod_lt _ (by decide)⟩ : ℝ) : EReal)
        else ((a ⟨k.val % 5, Nat.mod_lt _ (by decide)⟩ : ℝ) : EReal) - ((a ⟨k.val % 5, Nat.mod_lt _ (by decide)⟩ : ℝ) : EReal))
      * (if k.val / 5 % 2 = 0 then ((b ⟨k.val % 5, Nat.mod_lt _ (by decide)⟩ : ℝ) : EReal)
        else ((b ⟨k.val % 5, Nat.mod_lt _ (by decide)⟩ : ℝ) : EReal) - ((b ⟨k.val % 5, Nat.mod_lt _ (by decide)⟩ : ℝ) : EReal))
    = ((∑ r : Fin 5, a r * b r : ℝ) : EReal) := by
  have hz : ∀ r : ℝ, (r : EReal) - (r : EReal) = 0 := fun r => by
    rw [← EReal.coe_sub, sub_self, EReal.coe_zero]
  -- the summand as a function of the natural number under the index
  let G : ℕ → EReal := fun m =>
    (if m / 5 < 2 then ((a ⟨m % 5, Nat.mod_lt _ (by decide)⟩ : ℝ) : EReal)
        else ((a ⟨m % 5, Nat.mod_lt _ (by decide)⟩ : ℝ) : EReal) - ((a ⟨m % 5, Nat.mod_lt _ (by decide)⟩ : ℝ) : EReal))
      * (if m / 5 % 2 = 0 then ((b ⟨m % 5, Nat.mod_lt _ (by decide)⟩ : ℝ) : EReal)
        else ((b ⟨m % 5, Nat.mod_lt _ (by decide)⟩ : ℝ) : EReal) - ((b ⟨m % 5, Nat.mod_lt _ (by decide)⟩ : ℝ) : EReal))
  -- beyond the first five indices a factor is x - x = 0
  have hG0 : ∀ m ∈ Finset.range 20, m ∉ Finset.range 5 → G m = 0 := by
    intro m hm hm'
    rw [Finset.mem_range] at hm hm'
    show (if m / 5 < 2 then _ else _) * (if m / 5 % 2 = 0 then _ else _) = (0 : EReal)
    by_cases h2 : m / 5 < 2
    · have h1 : ¬ (m / 5 % 2 = 0) := by omega
      rw [if_neg h1, hz (b _), mul_zero]
    · rw [if_neg h2, hz (a _), zero_mul]
  -- at the first five the factors are the entries themselves
  have hG5 : ∀ r : Fin 5, G r.val = ((a r * b r : ℝ) : EReal) := by
    intro r
    have hr := r.isLt
    have e : (⟨r.val % 5, Nat.mod_lt _ (by decide)⟩ : Fin 5) = r := Fin.ext (Nat.mod_eq_of_lt hr)
    show (if r.val / 5 < 2 then _ else _) * (if r.val / 5 % 2 = 0 then _ else _) = _
    rw [if_pos (by omega), if_pos (by omega), e, EReal.coe_mul]
  calc ∑ k : Fin 20, G k.val = ∑ m ∈ Finset.range 20, G m := Fin.sum_univ_eq_sum_range G 20
    _ = ∑ m ∈ Finset.range 5, G m :=
        (Finset.sum_subset (Finset.range_subset.2 (by decide)) hG0).symm
    _ = ∑ r : Fin 5, G r.val := (Fin.sum_univ_eq_sum_range G 5).symm
    _ = ∑ r : Fin 5, ((a r * b r : ℝ) : EReal) := Finset.sum_congr rfl fun r _ => hG5 r
    _ = ((∑ r : Fin 5, a r * b r : ℝ) : EReal) := (coe_sum _ _).symm

end Cert.Chamfer.Alg

end
-- ==== Proof.Bridge.lean ====
/-
  From real coordinates to the loss. With real entries, the five augmented entries of a point of each cloud
  — (-2x, |x|², 1) and (y, 1, |y|²) — are real, so the contraction widened to twenty terms is their five-term product,
  which is |x|² - 2 x·y + |y|² = |x - y|², the squared distance. The squared distances are then real, the least of
  4096 of them is real, and for real fields of least distances one division of each total by 16384 is the mean of
  the four means; the two together are the loss.
-/
import proofs.«104659_g48447231099485_cont_8to1_c_557_14_alg».proof.Proof.Algebra

noncomputable section

namespace Cert.Chamfer.Bridge

open Cert.Chamfer Cert.Chamfer.Alg Idealize.ShloMosaic Idealize.ShloMosaic.ValueIdx

/-! ## (1) the widened contraction of the augmented rows -/

/-- The augmented row of a point x of the first cloud: (-2x, |x|², 1). -/
def augX (xs : Fin 3 → ℝ) (r : Fin 5) : ℝ :=
  if h : r.val < 3 then -2 * xs ⟨r.val, h⟩ else if r.val = 3 then 0 + ∑ k : Fin 3, xs k * xs k else 1

/-- The augmented row of a point y of the second cloud: (y, 1, |y|²). -/
def augY (ys : Fin 3 → ℝ) (r : Fin 5) : ℝ :=
  if h : r.val < 3 then ys ⟨r.val, h⟩ else if r.val = 3 then 1 else 0 + ∑ k : Fin 3, ys k * ys k

theorem augX_eq (xs : Fin 3 → ℝ) :
    augX xs = (![-2 * xs 0, -2 * xs 1, -2 * xs 2, 0 + ∑ k : Fin 3, xs k * xs k, 1] : Fin 5 → ℝ) := by
  funext r
  match r with
  | ⟨0, _⟩ => rfl
  | ⟨1, _⟩ => rfl
  | ⟨2, _⟩ => rfl
  | ⟨3, _⟩ => rfl
  | ⟨4, _⟩ => rfl
  | ⟨n + 5, h⟩ => exact absurd h (by omega)

theorem augY_eq (ys : Fin 3 → ℝ) :
    augY ys = (![ys 0, ys 1, ys 2, 1, 0 + ∑ k : Fin 3, ys k * ys k] : Fin 5 → ℝ) := by
  funext r
  match r with
  | ⟨0, _⟩ => rfl
  | ⟨1, _⟩ => rfl
  | ⟨2, _⟩ => rfl
  | ⟨3, _⟩ => rfl
  | ⟨4, _⟩ => rfl
  | ⟨n + 5, h⟩ => exact absurd h (by omega)

theorem widened_aug (A B : Fin 5 → EReal) (xs ys : Fin 3 → ℝ)
    (hA : ∀ r : Fin 5, A r = if h : r.val < 3 then Ideal.ofBits .f32 0xC0000000#32 * ((xs ⟨r.val, h⟩ : ℝ) : EReal)
        else if r.val = 3 then w0 + ∑ k : Fin 3, ((xs k : ℝ) : EReal) * ((xs k : ℝ) : EReal) else Ideal.ofBits .f32 0x3F800000#32)
    (hB : ∀ r : Fin 5, B r = if h : r.val < 3 then ((ys ⟨r.val, h⟩ : ℝ) : EReal)
        else if r.val = 3 then Ideal.ofBits .f32 0x3F800000#32 else w0 + ∑ k : Fin 3, ((ys k : ℝ) : EReal) * ((ys k : ℝ) : EReal)) :
    ∑ k : Fin 20,
      (if k.val / 5 < 2 then A ⟨k.val % 5, Nat.mod_lt _ (by decide)⟩
        else A ⟨k.val % 5, Nat.mod_lt _ (by decide)⟩ - A ⟨k.val % 5, Nat.mod_lt _ (by decide)⟩)
      * (if k.val / 5 % 2 = 0 then B ⟨k.val % 5, Nat.mod_lt _ (by decide)⟩
        else B ⟨k.val % 5, Nat.mod_lt _ (by decide)⟩ - B ⟨k.val % 5, Nat.mod_lt _ (by decide)⟩)
    = ∑ k : Fin 3, (((xs k : ℝ) : EReal) - ((ys k : ℝ) : EReal)) * (((xs k : ℝ) : EReal) - ((ys k : ℝ) : EReal)) := by
  -- the augmented entries are the coerced real ones
  have hA' : ∀ r : Fin 5, A r = ((augX xs r : ℝ) : EReal) := by
    intro r
    rw [hA r]; unfold augX
    by_cases h3 : r.val < 3
    · rw [dif_pos h3, dif_pos h3, wNeg2_eq, ← EReal.coe_mul]
    · rw [dif_neg h3, dif_neg h3]
      by_cases h4 : r.val = 3
      · rw [if_pos h4, if_pos h4, w0_eq, EReal.coe_add, EReal.coe_zero, coe_sum]
        simp only [EReal.coe_mul]
      · rw [if_neg h4, if_neg h4, w1_eq]
  have hB' : ∀ r : Fin 5, B r = ((augY ys r : ℝ) : EReal) := by
    intro r
    rw [hB r]; unfold augY
    by_cases h3 : r.val < 3
    · rw [dif_pos h3, dif_pos h3]
    · rw [dif_neg h3, dif_neg h3]
      by_cases h4 : r.val = 3
      · rw [if_pos h4, if_pos h4, w1_eq]
      · rw [if_neg h4, if_neg h4, w0_eq, EReal.coe_add, EReal.coe_zero, coe_sum]
        simp only [EReal.coe_mul]
  simp only [hA', hB']
  rw [widened_dot (augX xs) (augY ys), augX_eq, augY_eq, aug_dot, coe_sum]
  simp only [EReal.coe_mul, EReal.coe_sub]

/-! ## (2) with real entries the distances and the least distances are real -/

theorem dist_real (x y : Cloud) (hx : ∀ i, ∃ r : ℝ, x i = (r : EReal)) (hy : ∀ i, ∃ r : ℝ, y i = (r : EReal))
    (b : Fin 4) (i j : Fin 4096) :
    ∃ r : ℝ, dist x y b i j = (r : EReal) := by
  choose xr hxr using hx
  choose yr hyr using hy
  refine ⟨∑ k : Fin 3, (xr (ix3 b k i) - yr (ix3 b k j)) * (xr (ix3 b k i) - yr (ix3 b k j)), ?_⟩
  unfold dist
  rw [coe_sum]
  refine Finset.sum_congr rfl fun k _ => ?_
  rw [hxr, hyr, EReal.coe_mul, EReal.coe_sub]

theorem nearestInY_real (x y : Cloud) (hx : ∀ i, ∃ r : ℝ, x i = (r : EReal)) (hy : ∀ i, ∃ r : ℝ, y i = (r : EReal)) :
    ∃ g : Fin 4 → Fin 4096 → ℝ, ∀ b i, nearestInY x y b i = ((g b i : ℝ) : EReal) := by
  have hd : ∀ b i j, ∃ r : ℝ, dist x y b i j = (r : EReal) := fun b i j => dist_real x y hx hy b i j
  choose d hd using hd
  have hf : ∀ b i, ∃ r : ℝ, nearestInY x y b i = (r : EReal) := by
    intro b i
    unfold nearestInY
    simp only [hd]
    exact fold_min_real (by decide) (fun j => d b i j)
  choose g hg using hf
  exact ⟨g, hg⟩

theorem nearestInX_real (x y : Cloud) (hx : ∀ i, ∃ r : ℝ, x i = (r : EReal)) (hy : ∀ i, ∃ r : ℝ, y i = (r : EReal)) :
    ∃ g : Fin 4 → Fin 4096 → ℝ, ∀ b j, nearestInX x y b j = ((g b j : ℝ) : EReal) := by
  have hd : ∀ b i j, ∃ r : ℝ, dist x y b i j = (r : EReal) := fun b i j => dist_real x y hx hy b i j
  choose d hd using hd
  have hf : ∀ b j, ∃ r : ℝ, nearestInX x y b j = (r : EReal) := by
    intro b j
    unfold nearestInX
    simp only [hd]
    exact fold_min_real (by decide) (fun i => d b i j)
  choose g hg using hf
  exact ⟨g, hg⟩

/-! ## (3) one division of each total is the loss -/

theorem loss_flat (x y : Cloud) (hx : ∀ i, ∃ r : ℝ, x i = (r : EReal)) (hy : ∀ i, ∃ r : ℝ, y i = (r : EReal)) :
    Ideal.div (w0 + ∑ b : Fin 4, ∑ i : Fin 4096, nearestInY x y b i) (Ideal.ofBits .f32 0x46800000#32)
      + Ideal.div (w0 + ∑ b : Fin 4, ∑ j : Fin 4096, nearestInX x y b j) (Ideal.ofBits .f32 0x46800000#32)
    = loss x y := by
  obtain ⟨g, hg⟩ := nearestInY_real x y hx hy
  obtain ⟨g', hg'⟩ := nearestInX_real x y hx hy
  have e1 : nearestInY x y = fun b i => ((g b i : ℝ) : EReal) := funext fun b => funext fun i => hg b i
  have e2 : nearestInX x y = fun b j => ((g' b j : ℝ) : EReal) := funext fun b => funext fun j => hg' b j
  unfold loss
  simp only [hg, hg']
  rw [e1, e2, flat_mean, flat_mean]

end Cert.Chamfer.Bridge

end
-- ==== Proof.KernelLoss.lean ====
/-
  The idealized kernel's result is the Chamfer loss.

  The launch finds A = [-2·xᵀ | |x|² | 1] and B = [y ; 1 ; |y|²] (the host lines before it), so with real inputs
  each entry of the widened product is ∑ₖ (xₖ − yₖ)², the squared distance: the half built from A − A and B − B
  vanishes because a real minus itself is zero, and −2·x·y + |x|²·1 + 1·|y|² summed over the three coordinates is
  the expanded square. The row minima are then each point's least distance to the other cloud; the column minima,
  merged over the eight groups of rows, are the least over all 4096 rows. The averaging lines divide each total
  by 16384 = 4096·4 once, which for real summands is the mean over batches of the mean over points.
-/
import proofs.«104659_g48447231099485_cont_8to1_c_557_14_alg».proof.Proof.ArrayValue
import proofs.«104659_g48447231099485_cont_8to1_c_557_14_alg».proof.Proof.HostSides
import proofs.«104659_g48447231099485_cont_8to1_c_557_14_alg».proof.Proof.Bridge
import Idealize.ShloMosaic.Lib.StableHlo.Run

set_option maxRecDepth 16384

noncomputable section

namespace Cert.KernelIdeal.Loss

open Cert.KernelIdeal Cert.KernelIdeal.Gen Cert.KernelIdeal.Fr Cert.KernelIdeal.Body Cert.KernelIdeal.Buf Cert.KernelIdeal.Arr
open Cert.KernelIdeal.Host Cert.Chamfer Cert.Chamfer.Alg Cert.Chamfer.Bridge
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The launch finds A as the host lines build it from the first argument. -/
theorem found_A (c : Dev nD) : V m c main_v7 = hostA (m ((c : Thread nD τ).loc main_arg0)) := by
  show StableHlo.after hostOps0 (fun b => m (c, b)) (Proc.devRef .tc main_v7) = _
  after_results
  rfl

/-- And B from the second. -/
theorem found_B (c : Dev nD) : V m c main_v12 = hostB (m ((c : Thread nD τ).loc main_arg1)) := by
  show StableHlo.after hostOps0 (fun b => m (c, b)) (Proc.devRef .tc main_v12) = _
  after_results
  rfl

/-- The averaging lines compute their result from the two result arrays as the launch leaves them. -/
theorem tail_value (c : Dev nD) :
    Pipeline.afterTail₀ cfgs (dats m) 0 (V0 m) [hostOps1] c main_v18
      = hostTail ((dats m 0 c).arrAt 2 cfg0.N) ((dats m 0 c).arrAt 3 cfg0.N) := by
  unfold Pipeline.afterTail₀
  show StableHlo.after hostOps1 _ (Proc.devRef .tc main_v18) = _
  after_results
  exact congrArg₂ hostTail (Pipeline.withArrays_arr spec0 launch0.win.arr_inj c _ _ 2)
    (Pipeline.withArrays_arr spec0 launch0.win.arr_inj c _ _ 3)

/-- Merging the eight groups' least values is taking the least over all 4096 rows. -/
theorem mergedMin_eq (f : Fin 4096 → EReal) : mergedMin f = (Finset.univ : Finset (Fin 4096)).fold min wInf f := by
  unfold mergedMin groupMin
  exact chunked_min f

/-- With real inputs, entry (i, j) of batch b's widened product is the squared distance. -/
theorem product_is_dist (x y : Cloud) (xr yr : (⟨3, ![4, 3, 4096]⟩ : Shape).Idx → ℝ)
    (hxr : ∀ i, x i = ((xr i : ℝ) : EReal)) (hyr : ∀ i, y i = ((yr i : ℝ) : EReal)) (b : Fin 4) (i j : Fin 4096) :
    prodEntry (slabA (hostA x) b) (slabB (hostB y) b) i j = dist x y b i j := by
  have hA : ∀ r : Fin 5, hostA x (ix3 b i r) = if h : r.val < 3 then Ideal.ofBits .f32 0xC0000000#32 * ((xr (ix3 b (⟨r.val, h⟩ : Fin 3) i) : ℝ) : EReal)
      else if r.val = 3 then w0 + ∑ k : Fin 3, ((xr (ix3 b k i) : ℝ) : EReal) * ((xr (ix3 b k i) : ℝ) : EReal) else Ideal.ofBits .f32 0x3F800000#32 := by
    intro r; rw [hostA_apply]; simp only [hxr]
  have hB : ∀ r : Fin 5, hostB y (ix3 b r j) = if h : r.val < 3 then ((yr (ix3 b (⟨r.val, h⟩ : Fin 3) j) : ℝ) : EReal)
      else if r.val = 3 then Ideal.ofBits .f32 0x3F800000#32 else w0 + ∑ k : Fin 3, ((yr (ix3 b k j) : ℝ) : EReal) * ((yr (ix3 b k j) : ℝ) : EReal) := by
    intro r; rw [hostB_apply]; simp only [hyr]
  have key := widened_aug (fun r => hostA x (ix3 b i r)) (fun r => hostB y (ix3 b r j))
    (fun k => xr (ix3 b k i)) (fun k => yr (ix3 b k j)) hA hB
  unfold Cert.Chamfer.dist
  simp only [hxr, hyr]
  exact key

/-- With real inputs the kernel's averaging of its two result arrays is the Chamfer loss. -/
theorem kernel_value (x y : Cloud) (hx : ∀ i, ∃ r : ℝ, x i = (r : EReal)) (hy : ∀ i, ∃ r : ℝ, y i = (r : EReal)) :
    hostTail (rowArray (hostA x) (hostB y)) (colArray (hostA x) (hostB y)) = fun _ => loss x y := by
  obtain ⟨xr, hxr⟩ : ∃ xr : (⟨3, ![4, 3, 4096]⟩ : Shape).Idx → ℝ, ∀ i, x i = ((xr i : ℝ) : EReal) := ⟨fun i => (hx i).choose, fun i => (hx i).choose_spec⟩
  obtain ⟨yr, hyr⟩ : ∃ yr : (⟨3, ![4, 3, 4096]⟩ : Shape).Idx → ℝ, ∀ i, y i = ((yr i : ℝ) : EReal) := ⟨fun i => (hy i).choose, fun i => (hy i).choose_spec⟩
  have hrow : ∀ (b : Fin 4) (i : Fin 4096), rowArray (hostA x) (hostB y) (ix3 b (0 : Fin 1) i) = nearestInY x y b i := by
    intro b i
    show rowLeast (slabA (hostA x) b) (slabB (hostB y) b) i = _
    unfold rowLeast nearestInY
    exact congrArg (fun f : Fin 4096 → EReal => (Finset.univ : Finset (Fin 4096)).fold min wInf f)
      (funext fun q => product_is_dist x y xr yr hxr hyr b i q)
  have hcol : ∀ (b : Fin 4) (j : Fin 4096), colArray (hostA x) (hostB y) (ix3 b (0 : Fin 1) j) = nearestInX x y b j := by
    intro b j
    show mergedMin (fun P => prodEntry (slabA (hostA x) b) (slabB (hostB y) b) P j) = _
    refine (mergedMin_eq _).trans ?_
    unfold nearestInX
    exact congrArg (fun f : Fin 4096 → EReal => (Finset.univ : Finset (Fin 4096)).fold min wInf f)
      (funext fun i => product_is_dist x y xr yr hxr hyr b i j)
  funext j0
  rw [eq_ix0 j0, hostTail_apply]
  simp only [hrow, hcol]
  exact loss_flat x y hx hy

end Cert.KernelIdeal.Loss

end
-- ==== Proof.RefLoss.lean ====
/-
  The reference program read as the Chamfer loss of the specification.

  The reference transposes and broadcasts the two clouds to a field over (batch, i, j, coordinate), subtracts,
  squares, sums the three coordinates (started from the zero word, which is the real 0), takes the least over j
  and the least over i (each started from +∞), and averages each field of least distances over the points and then
  over the batches, dividing by the words 4096 and 4. Stage by stage this is the expression the specification
  writes: the index maps of the layout operations compose to the coordinates (b, k, i) and (b, k, j), a minimum
  over an axis is a fold of min over that axis's coordinate, and a sum over a rank-one index is the sum over its
  coordinate. No law of the reals is used beyond 0 + s = s for the inner sum's starting word.
-/
import proofs.«104659_g48447231099485_cont_8to1_c_557_14_alg».proof.Proof.Gen.ReferenceIdeal.Read
import proofs.«104659_g48447231099485_cont_8to1_c_557_14_alg».proof.Proof.Spec
import Idealize.ShloMosaic.PureOps.Ideal.Laws
import Idealize.ShloMosaic.PureOps.Reduce
import Idealize.ShloMosaic.Lib.ValueIdx

noncomputable section

namespace Cert.Chamfer.Ref

open Idealize.ShloMosaic Idealize.ShloMosaic.ValueIdx
open Cert.ReferenceIdeal Cert.ReferenceIdeal.Gen Cert.ReferenceIdeal.Read

/-- An argument array of the reference: a batch of clouds. -/
abbrev Arg : Type := (⟨S4x3x4096, .f32⟩ : BufTy).Contents (Elt Ideal)

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the three coordinates of the squared difference is the squared distance. -/
theorem v8_at (x y : Arg) (b : Fin 4) (i j : Fin 4096) :
    val_main_v8 (F := Ideal) x y (ix3 b i j) = dist x y b i j := by
  rw [val_main_v8_apply, val_main_cst_apply]
  show Ideal.ofBits .f32 0x00000000#32 + _ = _
  rw [Ideal.ofBits_zero_f32, zero_add]
  unfold dist
  refine Finset.sum_congr rfl fun k _ => ?_
  rw [val_main_v7_apply, val_main_v6_apply, val_main_v4_apply, val_main_v5_apply, val_main_v2_apply,
    val_main_v3_apply, val_main_v0_apply, val_main_v1_apply]
  have hx : idx_main_v0 (idx_main_v2 (idx_main_v4 (idx_main_v8 (ix3 b i j) k))) = ix3 b k i :=
    funext fun a => Fin.ext (by match a with | ⟨0, _⟩ => rfl | ⟨1, _⟩ => rfl | ⟨2, _⟩ => rfl)
  have hy : idx_main_v1 (idx_main_v3 (idx_main_v5 (idx_main_v8 (ix3 b i j) k))) = ix3 b k j :=
    funext fun a => Fin.ext (by match a with | ⟨0, _⟩ => rfl | ⟨1, _⟩ => rfl | ⟨2, _⟩ => rfl)
  rw [hx, hy]
  rfl

theorem reduces_d2 : S4x4096x4096.Reduces [2] S4x4096 := by decide
theorem reduces_d1 : S4x4096x4096.Reduces [1] S4x4096 := by decide

/-- The least over j of the squared distances. -/
theorem v9_at (x y : Arg) (b : Fin 4) (i : Fin 4096) :
    val_main_v9 (F := Ideal) x y (ix2 b i) = nearestInY x y b i := by
  unfold val_main_v9
  rw [Host.reduce_eq_fold_single _ _ _ reducesTo_S4x4096x4096_S4x4096_d2 reduces_d2 h_S_ (ix2 b i)]
  unfold nearestInY
  show Finset.fold min wInf (val_main_v8 (F := Ideal) x y ∘ reduces_d2.lift (ix2 b i)) (Finset.univ : Finset (Fin 4096))
    = Finset.fold min wInf (fun j => dist x y b i j) (Finset.univ : Finset (Fin 4096))
  refine Finset.fold_congr fun j _ => ?_
  show val_main_v8 (F := Ideal) x y (reduces_d2.lift (ix2 b i) j) = _
  have hl : reduces_d2.lift (ix2 b i) j = ix3 b i j :=
    funext fun c => Fin.ext (by match c with | ⟨0, _⟩ => rfl | ⟨1, _⟩ => rfl | ⟨2, _⟩ => rfl)
  rw [hl]
  exact v8_at x y b i j

/-- The least over i of the squared distances. -/
theorem v10_at (x y : Arg) (b : Fin 4) (j : Fin 4096) :
    val_main_v10 (F := Ideal) x y (ix2 b j) = nearestInX x y b j := by
  unfold val_main_v10
  rw [Host.reduce_eq_fold_single _ _ _ reducesTo_S4x4096x4096_S4x4096_d1 reduces_d1 h_S_ (ix2 b j)]
  unfold nearestInX
  show Finset.fold min wInf (val_main_v8 (F := Ideal) x y ∘ reduces_d1.lift (ix2 b j)) (Finset.univ : Finset (Fin 4096))
    = Finset.fold min wInf (fun i => dist x y b i j) (Finset.univ : Finset (Fin 4096))
  refine Finset.fold_congr fun i _ => ?_
  show val_main_v8 (F := Ideal) x y (reduces_d1.lift (ix2 b j) i) = _
  have hl : reduces_d1.lift (ix2 b j) i = ix3 b i j :=
    funext fun c => Fin.ext (by match c with | ⟨0, _⟩ => rfl | ⟨1, _⟩ => rfl | ⟨2, _⟩ => rfl)
  rw [hl]
  exact v8_at x y b i j

/-- The mean over the points of the first field of least distances, in batch b. -/
theorem v13_at (x y : Arg) (b : Fin 4) :
    val_main_v13 (F := Ideal) x y (ix1 b) = Ideal.div (w0 + ∑ i : Fin 4096, nearestInY x y b i) w4096 := by
  rw [val_main_v13_apply, val_main_v11_apply, val_main_v12_apply, val_main_cst_2_apply, val_main_cst_3_apply]
  show Ideal.div (w0 + _) w4096 = _
  refine congrArg (fun s => Ideal.div (w0 + s) w4096) (Finset.sum_congr rfl fun k _ => ?_)
  have hi : idx_main_v11 (ix1 b) k = ix2 b k :=
    funext fun a => Fin.ext (by match a with | ⟨0, _⟩ => rfl | ⟨1, _⟩ => rfl)
  rw [hi]
  exact v9_at x y b k

/-- The mean over the points of the second field of least distances, in batch b. -/
theorem v16_at (x y : Arg) (b : Fin 4) :
    val_main_v16 (F := Ideal) x y (ix1 b) = Ideal.div (w0 + ∑ j : Fin 4096, nearestInX x y b j) w4096 := by
  rw [val_main_v16_apply, val_main_v14_apply, val_main_v15_apply, val_main_cst_4_apply, val_main_cst_5_apply]
  show Ideal.div (w0 + _) w4096 = _
  refine congrArg (fun s => Ideal.div (w0 + s) w4096) (Finset.sum_congr rfl fun k _ => ?_)
  have hi : idx_main_v14 (ix1 b) k = ix2 b k :=
    funext fun a => Fin.ext (by match a with | ⟨0, _⟩ => rfl | ⟨1, _⟩ => rfl)
  rw [hi]
  exact v10_at x y b k

/-- The reference's result is the Chamfer loss of its two arguments. -/
theorem ref_loss (x y : Arg) :
    val_main_v21 (F := Ideal) x y = fun _ => Cert.Chamfer.loss x y := by
  funext i
  rw [val_main_v21_apply, val_main_v18_apply, val_main_v20_apply, val_main_v17_apply, val_main_v19_apply,
    val_main_cst_6_apply, val_main_cst_7_apply, val_main_cst_8_apply, val_main_cst_9_apply, sum_idx1, sum_idx1]
  unfold loss meanOfMeans
  show Ideal.div (w0 + _) w4 + Ideal.div (w0 + _) w4 = _
  refine congrArg₂ (fun s t => Ideal.div (w0 + s) w4 + Ideal.div (w0 + t) w4)
    (Finset.sum_congr rfl fun b _ => v13_at x y b) (Finset.sum_congr rfl fun b _ => v16_at x y b)

end Cert.Chamfer.Ref

end
-- ==== Proof.FiniteInputs.lean ====
/-
  The precondition, read back. The printed predicate asks, of each of the two arrays, that every entry x satisfy
  |x| < +∞, where |x| is max x (-x) on the extended reals and +∞ is the word 0x7F800000; it takes the conjunction
  of all these comparisons. If the predicate is one, each comparison is one, so max x (-x) < ⊤. An extended real
  is ⊥, ⊤ or a real number: at ⊥ the maximum is max ⊥ ⊤ = ⊤, at ⊤ it is ⊤, and neither is below ⊤; so x is a real.
-/
import proofs.«104659_g48447231099485_cont_8to1_c_557_14_alg».proof.Pre_finite_inputs
import proofs.«104659_g48447231099485_cont_8to1_c_557_14_alg».proof.Proof.Gen.Pre_finite_inputs
import Idealize.ShloMosaic.PureOps.Ideal
import Idealize.ShloMosaic.Lib.ReduceAll
import Idealize.ShloMosaic.Lib.ValueIdx

noncomputable section

namespace Cert.Chamfer.Fin

open Idealize.ShloMosaic Idealize.ShloMosaic.ValueIdx

/-- The result shape of a reduction over all axes has one index. -/
instance subsingleton_scalar_idx : Subsingleton Cert.Pre_finite_inputs.S_.Idx :=
  ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max x (-x) is below +∞ is a real number. -/
theorem real_of_abs_lt_inf (x : Ideal .f32)
    (h : FloatOps.cmpf .olt (FloatOps.hostAbsf x) (Ideal.ofBits .f32 0x7F800000#32) = 1#1) :
    ∃ r : ℝ, x = (r : EReal) := by
  have hlt : max (x : EReal) (-(x : EReal)) < ⊤ := by
    have h' : Ideal.cmp .olt (max (x : EReal) (-(x : EReal))) (Ideal.ofBits .f32 0x7F800000#32) = 1#1 := h
    rw [ofBits_inf] at h'
    unfold Ideal.cmp at h'
    by_contra hn
    simp [hn] at h'
  induction x using EReal.rec with
  | bot => simp at hlt
  | top => simp at hlt
  | coe r => exact ⟨r, rfl⟩

/-- If the printed precondition is all ones on two arrays read on the extended reals, every entry of both is a real number. -/
theorem real_of_pre [Cert.Pre_finite_inputs.Facts] (X Y : FVec Ideal Cert.Pre_finite_inputs.S4x3x4096 .f32)
    (h : Cert.Pre_finite_inputs.fn (F := Ideal) X Y = fun _ => 1#1) :
    (∀ i, ∃ r : ℝ, X i = (r : EReal)) ∧ (∀ i, ∃ r : ℝ, Y i = (r : EReal)) := by
  have h0 := congrFun h ix0
  dsimp only [Cert.Pre_finite_inputs.fn] at h0
  obtain ⟨hX, hY⟩ := IntOp.andi_eq_one.1 h0
  refine ⟨fun i => ?_, fun i => ?_⟩
  · have e := Host.reduce_andi_all _ _ _ _ ix0 hX i
    exact real_of_abs_lt_inf (X i) e
  · have e := Host.reduce_andi_all _ _ _ _ ix0 hY i
    exact real_of_abs_lt_inf (Y i) e

end Cert.Chamfer.Fin

end
-- ==== Proof.lean ====
/-
  A fused Chamfer-loss kernel against the plain formula, on the extended reals.

  The reference forms every squared distance ∑ₖ (xₖ(i) − yₖ(j))² between the 4096 points of two clouds in four
  batches, takes each point's least distance to the other cloud, and averages: over a cloud's points, then over the
  batches, for each cloud, and adds the two means. The kernel obtains the same distances as one matrix product of
  augmented operands, [-2·xᵀ | |x|² | 1] times [y ; 1 ; |y|²], each operand widened by its own difference with
  itself (which is zero for real entries), takes the row minima directly and the column minima group by group, and
  divides each total by 16384 once. With finite inputs the two results are equal.

  The three runs: each program terminates without fault and never writes its arguments. The kernel's idealization
  removed two round trips through a narrower number format, which are the identity on the extended reals.
-/
import proofs.«104659_g48447231099485_cont_8to1_c_557_14_alg».proof.Defs
import proofs.«104659_g48447231099485_cont_8to1_c_557_14_alg».proof.Proof.Gen.Kernel
import proofs.«104659_g48447231099485_cont_8to1_c_557_14_alg».proof.Proof.Gen.KernelIdeal
import proofs.«104659_g48447231099485_cont_8to1_c_557_14_alg».proof.Proof.Gen.ReferenceIdeal
import proofs.«104659_g48447231099485_cont_8to1_c_557_14_alg».proof.Proof.Gen.ReferenceIdeal.Run
import proofs.«104659_g48447231099485_cont_8to1_c_557_14_alg».proof.Proof.Gen.ReferenceIdeal.Read
import proofs.«104659_g48447231099485_cont_8to1_c_557_14_alg».proof.Proof.Gen.Pre_finite_inputs
import proofs.«104659_g48447231099485_cont_8to1_c_557_14_alg».proof.Proof.BitsFrame
import proofs.«104659_g48447231099485_cont_8to1_c_557_14_alg».proof.Proof.IdealFrame
import proofs.«104659_g48447231099485_cont_8to1_c_557_14_alg».proof.Proof.KernelLoss
import proofs.«104659_g48447231099485_cont_8to1_c_557_14_alg».proof.Proof.RefLoss
import proofs.«104659_g48447231099485_cont_8to1_c_557_14_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The program as printed runs and keeps its arguments. -/
theorem frame_kernel : Cert.frame_Kernel := fun m ρ _ => Cert.Kernel.Fr.frame (F := Bits) m ρ

/-- So does its idealization. -/
theorem frame_kernelIdeal : Cert.frame_KernelIdeal := fun m ρ _ => Cert.KernelIdeal.Fr.frame (F := Ideal) m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Narrowing to the shorter format and widening back is the identity on the extended reals, for both operands. -/
theorem preserves : Cert.preserves_Kernel_KernelIdeal :=
  ⟨IdealRules.truncf_extf.statement _ .f32 .bf16, IdealRules.truncf_extf.statement _ .f32 .bf16⟩

open Cert.KernelIdeal Cert.KernelIdeal.Gen Cert.KernelIdeal.Fr in
/-- The idealized kernel's run: its result is the Chamfer loss of its two arguments, which it keeps. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v18)
            = (fun _ => Cert.Chamfer.loss (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨by
      have hreal := Cert.Chamfer.Fin.real_of_pre _ _ (hpre c)
      refine ((h c).2 main_v18 (Pipeline.mem_restRefs_of main_v18 (by decide) (by decide))).trans ?_
      rw [Cert.KernelIdeal.Loss.tail_value, Cert.KernelIdeal.Arr.finalX, Cert.KernelIdeal.Arr.finalY,
        Cert.KernelIdeal.Loss.found_A, Cert.KernelIdeal.Loss.found_B]
      exact Cert.KernelIdeal.Loss.kernel_value _ _ hreal.1 hreal.2,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main (F := Ideal) m ρ)

/-- From memories that agree on the arguments both idealized programs end with the Chamfer loss. -/
theorem algebraic : Cert.algebraic_KernelIdeal_ReferenceIdeal := by
  intro m ρ m' ρ' hpre hagree
  refine ⟨fun c => fun _ => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), kernel_run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.Chamfer.Ref.ref_loss, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
